-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S1 : Shape := ⟨1, ![1]⟩
abbrev S128x128 : Shape := ⟨2, ![128, 128]⟩
abbrev S128 : Shape := ⟨1, ![128]⟩
abbrev S1x128 : Shape := ⟨2, ![1, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128 .f32) (main_arg9 : FVec F S1x128 .f32) (main_arg10 : FVec F S128 .f32) (main_arg11 : FVec F S128x128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x128 .f32 := Host.absf main_arg9
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S1x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x600000 32) (main_arg2 : FVec F S1 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S1x128 .f32) (main_arg10 : FVec F S128 .f32) (main_arg11 : FVec F S128x128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x600000 : Shape := ⟨2, ![2, 600000]⟩
abbrev S1 : Shape := ⟨1, ![1]⟩
abbrev S128x128 : Shape := ⟨2, ![128, 128]⟩
abbrev S128 : Shape := ⟨1, ![128]⟩
abbrev S1x128 : Shape := ⟨2, ![1, 128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S700000 : Shape := ⟨1, ![700000]⟩
abbrev S1x1 : Shape := ⟨2, ![1, 1]⟩
abbrev S5000x128 : Shape := ⟨2, ![5000, 128]⟩
abbrev S700000x1 : Shape := ⟨2, ![700000, 1]⟩
abbrev S700000x128 : Shape := ⟨2, ![700000, 128]⟩

abbrev nBuf : Space → Nat
  | .hbm => 128
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S1, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .f32⟩
  | .hbm, ⟨18, _⟩ => ⟨S100000, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S_, .f32⟩
  | .hbm, ⟨28, _⟩ => ⟨S600000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000, .f32⟩
  | .hbm, ⟨52, _⟩ => ⟨S600000, .f32⟩
  | .hbm, ⟨53, _⟩ => ⟨S100000, .i32⟩
  | .hbm, ⟨54, _⟩ => ⟨S700000, .i32⟩
  | .hbm, ⟨55, _⟩ => ⟨S700000, .i32⟩
  | .hbm, ⟨56, _⟩ => ⟨S100000, .f32⟩
  | .hbm, ⟨57, _⟩ => ⟨S700000, .f32⟩
  | .hbm, ⟨58, _⟩ => ⟨S1x1, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S100000x128, .f32⟩
  | .hbm, ⟨75, _⟩ => ⟨S_, .i32⟩
  | .hbm, ⟨76, _⟩ => ⟨S700000, .i32⟩
  | .hbm, ⟨77, _⟩ => ⟨S700000, .i1⟩
  | .hbm, ⟨78, _⟩ => ⟨S_, .i32⟩
  | .hbm, ⟨79, _⟩ => ⟨S700000, .i32⟩
  | .hbm, ⟨80, _⟩ => ⟨S700000, .i32⟩
  | .hbm, ⟨81, _⟩ => ⟨S700000, .i32⟩
  | .hbm, ⟨82, _⟩ => ⟨S700000x1, .i32⟩
  | .hbm, ⟨83, _⟩ => ⟨S700000x128, .f32⟩
  | .hbm, ⟨84, _⟩ => ⟨S700000x1, .f32⟩
  | .hbm, ⟨85, _⟩ => ⟨S700000x128, .f32⟩
  | .hbm, ⟨86, _⟩ => ⟨S700000x128, .f32⟩
  | .hbm, ⟨87, _⟩ => ⟨S_, .f32⟩
  | .hbm, ⟨88, _⟩ => ⟨S100000x128, .f32⟩
  | .hbm, ⟨89, _⟩ => ⟨S700000x1, .i32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S_, .i32⟩
  | .hbm, ⟨94, _⟩ => ⟨S700000, .i32⟩
  | .hbm, ⟨95, _⟩ => ⟨S700000, .i1⟩
  | .hbm, ⟨96, _⟩ => ⟨S_, .i32⟩
  | .hbm, ⟨97, _⟩ => ⟨S700000, .i32⟩
  | .hbm, ⟨98, _⟩ => ⟨S700000, .i32⟩
  | .hbm, ⟨99, _⟩ => ⟨S700000, .i32⟩
  | .hbm, ⟨100, _⟩ => ⟨S700000x1, .i32⟩
  | .hbm, ⟨101, _⟩ => ⟨S700000x128, .f32⟩
  | .hbm, ⟨102, _⟩ => ⟨S700000x1, .f32⟩
  | .hbm, ⟨103, _⟩ => ⟨S700000x128, .f32⟩
  | .hbm, ⟨104, _⟩ => ⟨S700000x128, .f32⟩
  | .hbm, ⟨105, _⟩ => ⟨S_, .f32⟩
  | .hbm, ⟨106, _⟩ => ⟨S100000x128, .f32⟩
  | .hbm, ⟨107, _⟩ => ⟨S700000x1, .i32⟩
  | .hbm, ⟨108, _⟩ => ⟨S100000x128, .f32⟩
  | .hbm, ⟨109, _⟩ => ⟨S100000x128, .f32⟩
  | .hbm, ⟨110, _⟩ => ⟨S100000x128, .f32⟩
  | .hbm, ⟨111, _⟩ => ⟨S_, .i32⟩
  | .hbm, ⟨112, _⟩ => ⟨S700000, .i32⟩
  | .hbm, ⟨113, _⟩ => ⟨S700000, .i1⟩
  | .hbm, ⟨114, _⟩ => ⟨S_, .i32⟩
  | .hbm, ⟨115, _⟩ => ⟨S700000, .i32⟩
  | .hbm, ⟨116, _⟩ => ⟨S700000, .i32⟩
  | .hbm, ⟨117, _⟩ => ⟨S700000, .i32⟩
  | .hbm, ⟨118, _⟩ => ⟨S700000x1, .i32⟩
  | .hbm, ⟨119, _⟩ => ⟨S700000x128, .f32⟩
  | .hbm, ⟨120, _⟩ => ⟨S700000x1, .f32⟩
  | .hbm, ⟨121, _⟩ => ⟨S700000x128, .f32⟩
  | .hbm, ⟨122, _⟩ => ⟨S700000x128, .f32⟩
  | .hbm, ⟨123, _⟩ => ⟨S_, .f32⟩
  | .hbm, ⟨124, _⟩ => ⟨S100000x128, .f32⟩
  | .hbm, ⟨125, _⟩ => ⟨S700000x1, .i32⟩
  | .hbm, ⟨126, _⟩ => ⟨S100000x128, .f32⟩
  | .hbm, ⟨127, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_15 : Ref sig .tc := ⟨.hbm, 111, rfl⟩
abbrev main_v81 : Ref sig .tc := ⟨.hbm, 112, rfl⟩
abbrev main_v82 : Ref sig .tc := ⟨.hbm, 113, rfl⟩
abbrev main_c_16 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_17 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S_S600000 : S_.BroadcastsInDim S600000 (![] : Fin 0 → Fin S600000.rank)
  bcast_S600000_S600000x1_0 : S600000.BroadcastsInDim S600000x1 (![0] : Fin 1 → Fin S600000x1.rank)
  concatenates_S600000_S100000_S700000_d0 : Shape.Concatenates [S600000, S100000] S700000 0
  shapeCasts_S1_S1x1 : S1.ShapeCasts S1x1
  bcast_S128_S1x128_1 : S128.BroadcastsInDim S1x128 (![1] : Fin 1 → Fin S1x128.rank)
  bcast_S_S1x128 : S_.BroadcastsInDim S1x128 (![] : Fin 0 → Fin S1x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S700000 : S_.BroadcastsInDim S700000 (![] : Fin 0 → Fin S700000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S1x1_S1x128_S1x128_1_0_0_1_n_n_wf : DotDims.WF S1x1 S1x128 S1x128 [1] [0] [0] [1] [] []
  dot_S1x128_S128x128_S1x128_1_0_0_1_n_n_wf : DotDims.WF S1x128 S128x128 S1x128 [1] [0] [0] [1] [] []
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S1x1_S1x128_S1x128_1_0_0_1_n_n : DotDims S1x1 S1x128 S1x128 where
  lhsContracting := [1]
  rhsContracting := [0]
  lhsNonContracting := [0]
  rhsNonContracting := [1]
  lhsBatch := []
  rhsBatch := []
  wf := dot_S1x1_S1x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v63) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v78) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v79) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v93) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v49) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v94) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S1 : Shape := ⟨1, ![1]⟩
abbrev S128x128 : Shape := ⟨2, ![128, 128]⟩
abbrev S128 : Shape := ⟨1, ![128]⟩
abbrev S1x128 : Shape := ⟨2, ![1, 128]⟩
abbrev S1x600000 : Shape := ⟨2, ![1, 600000]⟩
abbrev S600000 : Shape := ⟨1, ![600000]⟩
abbrev S1x1 : Shape := ⟨2, ![1, 1]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩

abbrev nBuf : Space → Nat
  | .hbm => 237
  | .vmem => 0
  | .smem => 0
  | _ => 0

abbrev hbmTy0_0 (i : Nat) : BufTy := match i % 128 with
  | 0 => ⟨S100000x128, .f32⟩
  | 1 => ⟨S2x600000, .i32⟩
  | 2 => ⟨S1, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x128, .f32⟩
  | 10 => ⟨S128, .f32⟩
  | 11 => ⟨S128x128, .f32⟩
  | 12 => ⟨S128, .f32⟩
  | 13 => ⟨S1x600000, .i32⟩
  | 14 => ⟨S600000, .i32⟩
  | 15 => ⟨S1x600000, .i32⟩
  | 16 => ⟨S600000, .i32⟩
  | 17 => ⟨S1x1, .f32⟩
  | 18 => ⟨S1x128, .f32⟩
  | 19 => ⟨S1x128, .f32⟩
  | 20 => ⟨S1x128, .f32⟩
  | 21 => ⟨S1x128, .f32⟩
  | 22 => ⟨S1x128, .f32⟩
  | 23 => ⟨S1x128, .f32⟩
  | 24 => ⟨S1x128, .f32⟩
  | 25 => ⟨S1x128, .f32⟩
  | 26 => ⟨S1x128, .f32⟩
  | 27 => ⟨S_, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S100000x128, .f32⟩
  | 34 => ⟨S_, .f32⟩
  | 35 => ⟨S100000, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S_, .f32⟩
  | 45 => ⟨S600000, .f32⟩
  | 46 => ⟨S100000, .f32⟩
  | 47 => ⟨S_, .f32⟩
  | 48 => ⟨S100000, .f32⟩
  | 49 => ⟨S100000, .f32⟩
  | 50 => ⟨S100000, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000, .f32⟩
  | 69 => ⟨S600000, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x128, .f32⟩
  | 79 => ⟨S600000x1, .f32⟩
  | 80 => ⟨S600000x128, .f32⟩
  | 81 => ⟨S600000x128, .f32⟩
  | 82 => ⟨S_, .f32⟩
  | 83 => ⟨S100000x128, .f32⟩
  | 84 => ⟨S600000x1, .i32⟩
  | 85 => ⟨S100000x128, .f32⟩
  | 86 => ⟨S_, .f32⟩
  | 87 => ⟨S100000, .f32⟩
  | 88 => ⟨S100000, .f32⟩
  | 89 => ⟨S100000x1, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S100000x128, .f32⟩
  | 101 => ⟨S100000x128, .f32⟩
  | 102 => ⟨S_, .f32⟩
  | 103 => ⟨S100000, .f32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S_, .f32⟩
  | 113 => ⟨S600000, .f32⟩
  | 114 => ⟨S100000, .f32⟩
  | 115 => ⟨S_, .f32⟩
  | 116 => ⟨S100000, .f32⟩
  | 117 => ⟨S100000, .f32⟩
  | 118 => ⟨S100000, .f32⟩
  | 119 => ⟨S_, .i32⟩
  | 120 => ⟨S600000, .i32⟩
  | 121 => ⟨S600000, .i1⟩
  | 122 => ⟨S_, .i32⟩
  | 123 => ⟨S600000, .i32⟩
  | 124 => ⟨S600000, .i32⟩
  | 125 => ⟨S600000, .i32⟩
  | 126 => ⟨S600000x1, .i32⟩
  | 127 => ⟨S600000, .f32⟩
  | _ => ⟨S100000x128, .f32⟩

abbrev hbmTy0_1 (i : Nat) : BufTy := match i % 128 with
  | 0 => ⟨S_, .i32⟩
  | 1 => ⟨S600000, .i32⟩
  | 2 => ⟨S600000, .i1⟩
  | 3 => ⟨S_, .i32⟩
  | 4 => ⟨S600000, .i32⟩
  | 5 => ⟨S600000, .i32⟩
  | 6 => ⟨S600000, .i32⟩
  | 7 => ⟨S600000x1, .i32⟩
  | 8 => ⟨S600000, .f32⟩
  | 9 => ⟨S600000, .f32⟩
  | 10 => ⟨S_, .i32⟩
  | 11 => ⟨S600000, .i32⟩
  | 12 => ⟨S600000, .i1⟩
  | 13 => ⟨S_, .i32⟩
  | 14 => ⟨S600000, .i32⟩
  | 15 => ⟨S600000, .i32⟩
  | 16 => ⟨S600000, .i32⟩
  | 17 => ⟨S600000x1, .i32⟩
  | 18 => ⟨S600000x128, .f32⟩
  | 19 => ⟨S600000x1, .f32⟩
  | 20 => ⟨S600000x128, .f32⟩
  | 21 => ⟨S600000x128, .f32⟩
  | 22 => ⟨S_, .f32⟩
  | 23 => ⟨S100000x128, .f32⟩
  | 24 => ⟨S600000x1, .i32⟩
  | 25 => ⟨S100000x128, .f32⟩
  | 26 => ⟨S_, .f32⟩
  | 27 => ⟨S100000, .f32⟩
  | 28 => ⟨S100000, .f32⟩
  | 29 => ⟨S100000x1, .f32⟩
  | 30 => ⟨S100000x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S100000x128, .f32⟩
  | 40 => ⟨S100000x128, .f32⟩
  | 41 => ⟨S100000x128, .f32⟩
  | 42 => ⟨S_, .f32⟩
  | 43 => ⟨S100000, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S_, .f32⟩
  | 53 => ⟨S600000, .f32⟩
  | 54 => ⟨S100000, .f32⟩
  | 55 => ⟨S_, .f32⟩
  | 56 => ⟨S100000, .f32⟩
  | 57 => ⟨S100000, .f32⟩
  | 58 => ⟨S100000, .f32⟩
  | 59 => ⟨S_, .i32⟩
  | 60 => ⟨S600000, .i32⟩
  | 61 => ⟨S600000, .i1⟩
  | 62 => ⟨S_, .i32⟩
  | 63 => ⟨S600000, .i32⟩
  | 64 => ⟨S600000, .i32⟩
  | 65 => ⟨S600000, .i32⟩
  | 66 => ⟨S600000x1, .i32⟩
  | 67 => ⟨S600000, .f32⟩
  | 68 => ⟨S_, .i32⟩
  | 69 => ⟨S600000, .i32⟩
  | 70 => ⟨S600000, .i1⟩
  | 71 => ⟨S_, .i32⟩
  | 72 => ⟨S600000, .i32⟩
  | 73 => ⟨S600000, .i32⟩
  | 74 => ⟨S600000, .i32⟩
  | 75 => ⟨S600000x1, .i32⟩
  | 76 => ⟨S600000, .f32⟩
  | 77 => ⟨S600000, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x128, .f32⟩
  | 87 => ⟨S600000x1, .f32⟩
  | 88 => ⟨S600000x128, .f32⟩
  | 89 => ⟨S600000x128, .f32⟩
  | 90 => ⟨S_, .f32⟩
  | 91 => ⟨S100000x128, .f32⟩
  | 92 => ⟨S600000x1, .i32⟩
  | 93 => ⟨S100000x128, .f32⟩
  | 94 => ⟨S_, .f32⟩
  | 95 => ⟨S100000, .f32⟩
  | 96 => ⟨S100000, .f32⟩
  | 97 => ⟨S100000x1, .f32⟩
  | 98 => ⟨S100000x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x128, .f32⟩
  | 108 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_call0_cst : Ref sig .tc := ⟨.hbm, 96, rfl⟩
abbrev main_call0_v0 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_13 : Ref sig .tc := ⟨.hbm, 102, rfl⟩
abbrev main_v72 : Ref sig .tc := ⟨.hbm, 103, rfl⟩
abbrev main_c_14 : Ref sig .tc := ⟨.hbm, 104, rfl⟩
abbrev main_v73 : Ref sig .tc := ⟨.hbm, 105, rfl⟩
abbrev main_v74 : Ref sig .tc := ⟨.hbm, 106, rfl⟩
abbrev main_c_15 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_16 : Ref sig .tc := ⟨.hbm, 112, rfl⟩
abbrev main_v79 : Ref sig .tc := ⟨.hbm, 113, rfl⟩
abbrev main_v80 : Ref sig .tc := ⟨.hbm, 114, rfl⟩
abbrev main_cst_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_18 : Ref sig .tc := ⟨.hbm, 119, rfl⟩
abbrev main_v84 : Ref sig .tc := ⟨.hbm, 120, rfl⟩
abbrev main_v85 : Ref sig .tc := ⟨.hbm, 121, rfl⟩
abbrev main_c_19 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_20 : Ref sig .tc := ⟨.hbm, 128, rfl⟩
abbrev main_v91 : Ref sig .tc := ⟨.hbm, 129, rfl⟩
abbrev main_v92 : Ref sig .tc := ⟨.hbm, 130, rfl⟩
abbrev main_c_21 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_22 : Ref sig .tc := ⟨.hbm, 138, rfl⟩
abbrev main_v99 : Ref sig .tc := ⟨.hbm, 139, rfl⟩
abbrev main_v100 : Ref sig .tc := ⟨.hbm, 140, rfl⟩
abbrev main_c_23 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_24 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_25 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_call1_cst : Ref sig .tc := ⟨.hbm, 164, rfl⟩
abbrev main_call1_v0 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_26 : Ref sig .tc := ⟨.hbm, 170, rfl⟩
abbrev main_v125 : Ref sig .tc := ⟨.hbm, 171, rfl⟩
abbrev main_c_27 : Ref sig .tc := ⟨.hbm, 172, rfl⟩
abbrev main_v126 : Ref sig .tc := ⟨.hbm, 173, rfl⟩
abbrev main_v127 : Ref sig .tc := ⟨.hbm, 174, rfl⟩
abbrev main_c_28 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_29 : Ref sig .tc := ⟨.hbm, 180, rfl⟩
abbrev main_v132 : Ref sig .tc := ⟨.hbm, 181, rfl⟩
abbrev main_v133 : Ref sig .tc := ⟨.hbm, 182, rfl⟩
abbrev main_cst_30 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_c_31 : Ref sig .tc := ⟨.hbm, 187, rfl⟩
abbrev main_v137 : Ref sig .tc := ⟨.hbm, 188, rfl⟩
abbrev main_v138 : Ref sig .tc := ⟨.hbm, 189, rfl⟩
abbrev main_c_32 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_c_33 : Ref sig .tc := ⟨.hbm, 196, rfl⟩
abbrev main_v144 : Ref sig .tc := ⟨.hbm, 197, rfl⟩
abbrev main_v145 : Ref sig .tc := ⟨.hbm, 198, rfl⟩
abbrev main_c_34 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_c_35 : Ref sig .tc := ⟨.hbm, 206, rfl⟩
abbrev main_v152 : Ref sig .tc := ⟨.hbm, 207, rfl⟩
abbrev main_v153 : Ref sig .tc := ⟨.hbm, 208, rfl⟩
abbrev main_c_36 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_cst_37 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_cst_38 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_call2_cst : Ref sig .tc := ⟨.hbm, 232, rfl⟩
abbrev main_call2_v0 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S1_S1x1 : S1.ShapeCasts S1x1
  bcast_S128_S1x128_1 : S128.BroadcastsInDim S1x128 (![1] : Fin 1 → Fin S1x128.rank)
  bcast_S_S1x128 : S_.BroadcastsInDim S1x128 (![] : Fin 0 → Fin S1x128.rank)
  bcast_S_S100000 : S_.BroadcastsInDim S100000 (![] : Fin 0 → Fin S100000.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  dot_S1x1_S1x128_S1x128_1_0_0_1_n_n_wf : DotDims.WF S1x1 S1x128 S1x128 [1] [0] [0] [1] [] []
  dot_S1x128_S128x128_S1x128_1_0_0_1_n_n_wf : DotDims.WF S1x128 S128x128 S1x128 [1] [0] [0] [1] [] []
  dot_S100000x128_S128x128_S100000x128_1_0_0_1_n_n_wf : DotDims.WF S100000x128 S128x128 S100000x128 [1] [0] [0] [1] [] []
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S1x1_S1x128_S1x128_1_0_0_1_n_n : DotDims S1x1 S1x128 S1x128 where
  lhsContracting := [1]
  rhsContracting := [0]
  lhsNonContracting := [0]
  rhsNonContracting := [1]
  lhsBatch := []
  rhsBatch := []
  wf := dot_S1x1_S1x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.KernelRun.lean ====
/-
  The idealized kernel's run with its result named.

  The program is six pallas_calls among four stretches of host operations. Its run from the launch memory ends with
  every unscoped buffer of a core at the last boundary's contents; the result buffer is one of them, so it ends at
  those contents too, and the argument arrays end as launched. The contents at a boundary are a fold through the
  program: a stretch of host operations applies them, a region replaces its arrays by what its write-backs leave.
-/
import proofs.«117620_j43267500540702_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from the launch memory terminates without a fault; the result buffer ends at the
    last boundary's contents and every argument array as launched. -/
theorem run_value : θ_run defs (onTc (τ := τ) (main (F := F))) ⟨m, fun _ => 0, ρ⟩ (fun r => ∀ c : Dev nD,
      r.2.mem ((c.tc : Thread nD τ).loc main_v94) = W10 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v94 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.RunValue

end
-- ==== Proof.LibConcatFold.lean ====
/-
  GENERAL lemma: a concatenation of two arrays, which the programs spell with a list of (shape, array) pairs, as a
  plain function of the two arrays: the operands are then ordinary arguments, and unfolding the definition gives the
  list spelling back.
-/
import Idealize.ShloMosaic.PureOps.ShapeOps

namespace Cert.LibConcatFold

open Idealize.ShloMosaic

/-- The concatenation of x (shape s1) and y (shape s2) along axis a of t. -/
def cat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- The list spelling of a two-operand concatenation is the plain function. -/
theorem cat2_fold {α : Type} (t : Shape) (a : Fin t.rank) (s1 s2 : Shape) (x : s1.Idx → α) (y : s2.Idx → α)
    (h : Shape.Concatenates (List.map (fun p : (s : Shape) × (s.Idx → α) => p.1) [⟨s1, x⟩, ⟨s2, y⟩]) t a) :
    concatenate t (no_index a) [⟨s1, x⟩, ⟨s2, y⟩] h
      = cat2 t a s1 s2 (show Shape.Concatenates [s1, s2] t a from h) x y := rfl

end Cert.LibConcatFold
-- ==== Proof.HostStages.lean ====
/-
  The kernel program's four stretches of host operations, read for ANY contents W they are entered from.

  * Before the first region the program cuts the edge list into its source and target rows, counts the in-degrees,
    takes their reciprocal square roots dinv, forms the edge weights dinv[src] * dinv[dst], and appends one
    self-loop per node: the source and the target lists are each followed by the node numbers 0 .. 99999, the weights
    by dinv * dinv. It also computes the gate row. Each of these arrays is the reference's own stage of the same
    name applied to the argument arrays (the two programs spell the same operations), joined with the self-loops.
  * Between a product region and the next bias region the program aggregates: it gathers the rows of the product
    named by the (normalised) extended source list, scales row e by the extended weight e, and sums the rows into
    the nodes named by the extended target list, starting from zero: agg.
-/
import proofs.«117620_j43267500540702_1_alg».proof.Proof.Gen.KernelIdeal.Frame
import proofs.«117620_j43267500540702_1_alg».proof.Proof.Gen.ReferenceIdeal.Read
import proofs.«117620_j43267500540702_1_alg».proof.Proof.LibConcatFold
import Idealize.ShloMosaic.Lib.StableHlo.Run
import Idealize.ShloMosaic.PureOps.Ideal

set_option maxRecDepth 16384
set_option maxHeartbeats 4000000

noncomputable section

namespace Cert.KernelIdeal.HostStages

open Idealize.ShloMosaic Idealize.ShloMosaic.TcCoe Idealize.ShloMosaic.Tactic Idealize.SL.Sem Idealize.ShloMosaic.StableHlo
open Cert.KernelIdeal Cert.KernelIdeal.Gen
open Cert.LibConcatFold

/-- The aggregation between a product and the next bias step: gather the rows of h named by the normalised
    extended source list s32, scale row e by the extended weight n35 e, and sum the rows into the nodes named by
    the extended target list s33, from zero. -/
def agg (s32 s33 : S700000.Idx → BitVec 32) (n35 : S700000.Idx → EReal) (h : S100000x128.Idx → EReal) :
    S100000x128.Idx → EReal :=
  Host.scatterAdd (F := Ideal) scatter_S100000x128_S700000x1_S700000x128_1_0_0_1
    (broadcastInDim S100000x128 ![] bcast_S_S100000x128 (constant (F := Ideal) S_ .f32 0x00000000#32))
    (broadcastInDim S700000x1 ![0] bcast_S700000_S700000x1_0 s33)
    (mulf (F := Ideal)
      (Host.gather gather_S100000x128_S700000x1_S700000x128_1_0_n_n_0_1_1128 h
        (broadcastInDim S700000x1 ![0] bcast_S700000_S700000x1_0
          (select (cmpi .slt s32 (broadcastInDim S700000 ![] bcast_S_S700000 (constantI S_ 32 0#32)))
            (addi s32 (broadcastInDim S700000 ![] bcast_S_S700000 (constantI S_ 32 100000#32))) s32)))
      (broadcastInDim S700000x128 ![0, 1] bcast_S700000x1_S700000x128_0_1
        (broadcastInDim S700000x1 ![0] bcast_S700000_S700000x1_0 n35)))

/-- The extended source list: the edges' source rows, then the node numbers. -/
def srcExt (ei : S2x600000.Idx → BitVec 32) : S700000.Idx → BitVec 32 :=
  cat2 S700000 0 S600000 S100000 concatenates_S600000_S100000_S700000_d0 (Cert.ReferenceIdeal.Read.val_main_v1 (F := Ideal) ei) (iotaInDim S100000 32 0)

/-- The extended target list: the edges' target rows, then the node numbers. -/
def dstExt (ei : S2x600000.Idx → BitVec 32) : S700000.Idx → BitVec 32 :=
  cat2 S700000 0 S600000 S100000 concatenates_S600000_S100000_S700000_d0 (Cert.ReferenceIdeal.Read.val_main_v3 (F := Ideal) ei) (iotaInDim S100000 32 0)

/-- The extended weights: the edges' weights dinv[src] * dinv[dst], then dinv * dinv per node. -/
def normExt (ei : S2x600000.Idx → BitVec 32) : S700000.Idx → EReal :=
  cat2 S700000 0 S600000 S100000 concatenates_S600000_S100000_S700000_d0 (Cert.ReferenceIdeal.Read.val_main_v45 (F := Ideal) ei)
    (mulf (F := Ideal) (φ := .f32) (Cert.ReferenceIdeal.Read.val_main_v30 (F := Ideal) ei) (Cert.ReferenceIdeal.Read.val_main_v30 (F := Ideal) ei))

variable (W : Valuation τ sig (Elt Ideal))

theorem host1_v63 : (StableHlo.after hostOps1 W (Proc.devRef .tc main_v63) : S100000x128.Idx → EReal)
    = agg (W (Proc.devRef .tc main_v32)) (W (Proc.devRef .tc main_v33)) (W (Proc.devRef .tc main_v35)) (W (Proc.devRef .tc main_v50)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibConcatFold.cat2_fold]
  rfl

theorem host3_v78 : (StableHlo.after hostOps3 W (Proc.devRef .tc main_v78) : S100000x128.Idx → EReal)
    = agg (W (Proc.devRef .tc main_v32)) (W (Proc.devRef .tc main_v33)) (W (Proc.devRef .tc main_v35)) (W (Proc.devRef .tc main_v65)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibConcatFold.cat2_fold]
  rfl

theorem host5_v93 : (StableHlo.after hostOps5 W (Proc.devRef .tc main_v93) : S100000x128.Idx → EReal)
    = agg (W (Proc.devRef .tc main_v32)) (W (Proc.devRef .tc main_v33)) (W (Proc.devRef .tc main_v35)) (W (Proc.devRef .tc main_v80)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibConcatFold.cat2_fold]
  rfl

theorem host0_v32 : (StableHlo.after hostOps0 W (Proc.devRef .tc main_v32) : S700000.Idx → BitVec 32)
    = srcExt (W (Proc.devRef .tc main_arg1)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibConcatFold.cat2_fold]
  rfl

theorem host0_v33 : (StableHlo.after hostOps0 W (Proc.devRef .tc main_v33) : S700000.Idx → BitVec 32)
    = dstExt (W (Proc.devRef .tc main_arg1)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibConcatFold.cat2_fold]
  rfl

theorem host0_v35 : (StableHlo.after hostOps0 W (Proc.devRef .tc main_v35) : S700000.Idx → EReal)
    = normExt (W (Proc.devRef .tc main_arg1)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibConcatFold.cat2_fold]
  rfl

theorem host0_v49 : (StableHlo.after hostOps0 W (Proc.devRef .tc main_v49) : S1x128.Idx → EReal)
    = Cert.ReferenceIdeal.Read.val_main_v17 (F := Ideal) (W (Proc.devRef .tc main_arg2)) (W (Proc.devRef .tc main_arg9)) (W (Proc.devRef .tc main_arg10))
        (W (Proc.devRef .tc main_arg11)) (W (Proc.devRef .tc main_arg12)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibConcatFold.cat2_fold]
  rfl

end Cert.KernelIdeal.HostStages

end
-- ==== Proof.LayerSpec.lean ====
/-
  The two dense stages of a graph-convolution layer as whole-array functions, index by index.

  * mm x w : the product of the node features x [100000, 128] with a weight matrix w [128, 128]; entry (n, q) is
    the sum over k of x(n, k) * w(k, q).
  * fin s b g : the layer's last step on an aggregated array s [100000, 128] with a bias b [128] and a gate row
    g [1, 128]; entry (n, q) is max(s(n, q) + b(q), 0) * g(0, q), the zero written as the float word it is printed
    with.
  No program is mentioned here.
-/
import Idealize.ShloMosaic.PureOps.Ideal
import Idealize.ShloMosaic.Lib.ValueIdx

noncomputable section

namespace Cert.Gcn

open Idealize.ShloMosaic Idealize.ShloMosaic.ValueIdx
open scoped BigOperators

/-- The product x * w, entry by entry. -/
def mm (x : (⟨2, ![100000, 128]⟩ : Shape).Idx → EReal) (w : (⟨2, ![128, 128]⟩ : Shape).Idx → EReal) :
    (⟨2, ![100000, 128]⟩ : Shape).Idx → EReal :=
  fun i => ∑ k : Fin 128, x (ix2 (i 0) k) * w (ix2 k (i 1))

theorem mm_apply (x : (⟨2, ![100000, 128]⟩ : Shape).Idx → EReal) (w : (⟨2, ![128, 128]⟩ : Shape).Idx → EReal)
    (n : Fin 100000) (q : Fin 128) : mm x w (ix2 n q) = ∑ k : Fin 128, x (ix2 n k) * w (ix2 k q) := rfl

/-- Bias, rectifier and gate, entry by entry. -/
def fin (s : (⟨2, ![100000, 128]⟩ : Shape).Idx → EReal) (b : (⟨1, ![128]⟩ : Shape).Idx → EReal)
    (g : (⟨2, ![1, 128]⟩ : Shape).Idx → EReal) : (⟨2, ![100000, 128]⟩ : Shape).Idx → EReal :=
  fun i => max (s i + b (ix1 (i 1))) (Ideal.ofBits .f32 0x00000000#32) * g (ix2 (0 : Fin 1) (i 1))

theorem fin_apply (s : (⟨2, ![100000, 128]⟩ : Shape).Idx → EReal) (b : (⟨1, ![128]⟩ : Shape).Idx → EReal)
    (g : (⟨2, ![1, 128]⟩ : Shape).Idx → EReal) (n : Fin 100000) (q : Fin 128) :
    fin s b g (ix2 n q) = max (s (ix2 n q) + b (ix1 q)) (Ideal.ofBits .f32 0x00000000#32) * g (ix2 (0 : Fin 1) q) := rfl

end Cert.Gcn

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibPlainDot.lean ====
/-
  GENERAL LEMMAS: the product of an [R, K] matrix with a [K, N] matrix under the plain dimension record (axis 1 of the left
  operand contracted with axis 0 of the right, no batch axes), read at (p, q) on extended reals as the sum over k of
  l(p, k) * r(k, q) — for the matrix unit's product into a zero accumulator and for the host's dot_general. Any extents; a
  printed record with these six lists is this record. It imports LibMatmulRows.lean of the same directory.
-/
import Idealize.ShloMosaic.PureOps.Ideal
import Idealize.ShloMosaic.PureOps.Ideal.Laws
import Idealize.ShloMosaic.Lib.ValueIdx
import proofs.«117620_j43267500540702_1_alg».proof.Proof.LibMatmulRows

noncomputable section

namespace Cert.LibPlainDot

open Idealize.ShloMosaic Idealize.ShloMosaic.ValueIdx
open scoped BigOperators

variable {R K N : ℕ}

theorem lhs0 (i : (⟨2, ![R, N]⟩ : Shape).Idx) (s : (DotDims.plain R K N).contr.Idx) :
    ((DotDims.plain R K N).lhsIdx i s 0).val = (i 0).val := by
  unfold DotDims.lhsIdx
  rw [dif_neg (show ¬(0 : Fin 2) ∈ (DotDims.plain R K N).lhsBatch from List.not_mem_nil),
    dif_pos (show (0 : Fin 2) ∈ (DotDims.plain R K N).lhsNonContracting from List.mem_singleton.mpr rfl)]
  rfl

theorem lhs1 (i : (⟨2, ![R, N]⟩ : Shape).Idx) (s : (DotDims.plain R K N).contr.Idx) :
    ((DotDims.plain R K N).lhsIdx i s 1).val = (s ⟨0, Nat.one_pos⟩).val :=
  (DotDims.plain R K N).lhsIdx_val_of_single rfl i s

theorem rhs0 (i : (⟨2, ![R, N]⟩ : Shape).Idx) (s : (DotDims.plain R K N).contr.Idx) :
    ((DotDims.plain R K N).rhsIdx i s 0).val = (s ⟨0, Nat.one_pos⟩).val :=
  (DotDims.plain R K N).rhsIdx_val_of_single rfl i s

theorem rhs1 (i : (⟨2, ![R, N]⟩ : Shape).Idx) (s : (DotDims.plain R K N).contr.Idx) :
    ((DotDims.plain R K N).rhsIdx i s 1).val = (i 1).val := by
  unfold DotDims.rhsIdx
  rw [dif_neg (show ¬(1 : Fin 2) ∈ (DotDims.plain R K N).rhsBatch from List.not_mem_nil),
    dif_pos (show (1 : Fin 2) ∈ (DotDims.plain R K N).rhsNonContracting from List.mem_singleton.mpr rfl)]
  rfl

/-- The matrix unit's product into a zero accumulator, read at (p, q). -/
theorem matmul_plain {φ₁ φ₂ : FTy} (l : FVec Ideal ⟨2, ![R, K]⟩ φ₁) (r : FVec Ideal ⟨2, ![K, N]⟩ φ₂) (p : Fin R) (q : Fin N) :
    matmul (DotDims.plain R K N) none l r (constant (F := Ideal) ⟨2, ![R, N]⟩ .f32 0x00000000#32) (ix2 p q)
      = ∑ k : Fin K, l (ix2 p k) * r (ix2 k q) :=
  Cert.LibMatmulRows.matmul_rows (DotDims.plain R K N) rfl rfl lhs0 lhs1 rhs0 rhs1 l r p q

/-- The host's dot_general, read at (p, q). -/
theorem hostdot_plain (l : FVec Ideal ⟨2, ![R, K]⟩ .f32) (r : FVec Ideal ⟨2, ![K, N]⟩ .f32) (p : Fin R) (q : Fin N) :
    Host.dotGeneral (DotDims.plain R K N) none l r (ix2 p q) = ∑ k : Fin K, l (ix2 p k) * r (ix2 k q) :=
  Cert.LibMatmulRows.hostdot_rows (DotDims.plain R K N) rfl rfl lhs0 lhs1 rhs0 rhs1 l r p q

end Cert.LibPlainDot

end
-- ==== Proof.Region0.lean ====
/-
  Region 0 (a product of the node features with a weight matrix, twenty blocks of 5000 rows): what its output
  array holds after the region, for any contents V the region is entered from.

  Point t stages rows 5000 t .. 5000 t + 4999 of the features and the whole weight matrix, multiplies them on the
  matrix unit into zero and writes the product back to the same rows of the output. A change of float format is
  the identity on extended reals, so the written block is the block of mm x w; the twenty blocks cover the array.
-/
import proofs.«117620_j43267500540702_1_alg».proof.Proof.Gen.KernelIdeal.Frame
import proofs.«117620_j43267500540702_1_alg».proof.Proof.LayerSpec
import proofs.«117620_j43267500540702_1_alg».proof.Proof.LibPlainDot
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.Gcn
open scoped BigOperators

theorem hz : (![0, 0] : Fin 2 → Nat) = fun _ => 0 := funext fun a => by fin_cases a <;> rfl

/-- The body's stored value at (p, q): the sum over k of the features' block at (p, k) times the weights at (k, q). -/
theorem pay_at (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.LibPlainDot.matmul_plain (R := 5000) (K := 128) (N := 128) x0 x1 p q

/-- The stored value at (p, q) is entry i of mm X W when the staged blocks hold row (i 0) of X and column (i 1) of W. -/
theorem pay_eq_mm (X : S100000x128.Idx → EReal) (Wt : S128x128.Idx → EReal)
    (x0 : Vec Ideal S5000x128 .f32) (x1 : Vec Ideal S128x128 .f32) (p : Fin 5000) (q : Fin 128) (i : S100000x128.Idx)
    (hx0 : ∀ k : Fin 128, x0 (ix2 p k) = X (ix2 (i 0) k)) (hx1 : ∀ k : Fin 128, x1 (ix2 k q) = Wt (ix2 k (i 1))) :
    k0_pay1 (F := Ideal) x0 x1 (ix2 p q) = mm X Wt i := by
  rw [pay_at]
  exact Finset.sum_congr rfl fun k _ => by rw [hx0 k, hx1 k]

/-- The printed index maps over the grid: the features' and the output's blocks are block row t, the weights' block
    is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of mm of the two input arrays as the region finds them. -/
theorem flushed_eq (c : Dev nD) (t : Fin cfg0.N) :
    (dat0 (F := Ideal) V c).flushed 2 t = ((cfg0.win 2).blk t).view.read (Elt Ideal)
      (mm (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  refine (congrArg (k0_pay1 (F := Ideal) (iblk0 V c 0 t) (iblk0 V c 1 t)) (eq_ix2 j)).trans ?_
  refine pay_eq_mm (V c (Pipeline.arrRef spec0 0)) (V c (Pipeline.arrRef spec0 1)) (iblk0 V c 0 t) (iblk0 V c 1 t)
    (j 0) (j 1) (((cfg0.win 2).blk t).view.emb j) (fun k => ?_) (fun k => ?_)
  · show V c (Pipeline.arrRef spec0 0) (((cfg0.win 0).blk t).view.emb (ix2 (j 0) k)) = _
    refine congrArg (V c (Pipeline.arrRef spec0 0)) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c (Pipeline.arrRef spec0 1) (((cfg0.win 1).blk t).view.emb (ix2 k (j 1))) = _
    refine congrArg (V c (Pipeline.arrRef spec0 1)) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole (Pipeline.arrRef spec0 2)).slice (win0_2.rect t)).set ↔ _
  rw [View.set_slice_whole, Rect.mem_set_unit]
  exact Iff.rfl

/-- Every row is in the block of the point row / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is mm of the two input arrays as the region finds them. -/
theorem final (c : Dev nD) : (dat0 (F := Ideal) V c).arrAt 2 cfg0.N
    = mm (V c (Pipeline.arrRef spec0 0)) (V c (Pipeline.arrRef spec0 1)) :=
  (dat0 (F := Ideal) V c).arrAt_eq_of_cover 2 _ (fun t _ => flushed_eq V c t) (fun i => cover i)

end Cert.KernelIdeal.Region0

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.Region1.lean ====
/-
  Region 1 (bias, rectifier and gate on twenty blocks of 5000 rows): what its output array holds after the region,
  for any contents V the region is entered from.

  Point t stages rows 5000 t .. 5000 t + 4999 of the aggregated array, the whole bias vector and the whole gate row,
  computes max(s + b, 0) * g with the bias and the gate laid along the rows, and writes the block back to the same
  rows of the output: the block of fin s b g. The twenty blocks cover the array.
-/
import proofs.«117620_j43267500540702_1_alg».proof.Proof.Gen.KernelIdeal.Frame
import proofs.«117620_j43267500540702_1_alg».proof.Proof.LayerSpec
import proofs.«117620_j43267500540702_1_alg».proof.Proof.LibBiasRows
import Idealize.ShloMosaic.Lib.Pipeline.Value
import Idealize.ShloMosaic.Lib.ValueLayout
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.Gcn
open scoped BigOperators

theorem hz : (![0, 0] : Fin 2 → Nat) = fun _ => 0 := funext fun a => by fin_cases a <;> rfl
theorem hz1 : (![0] : Fin 1 → Nat) = fun _ => 0 := funext fun a => by fin_cases a; rfl

/-- The body's stored value at (p, q): max(s(p, q) + b(q), 0) * g(0, q). -/
theorem pay_at (x0 : Vec Ideal S5000x128 .f32) (x1 : Vec Ideal S128 .f32) (x2 : Vec Ideal S1x128 .f32) (p : Fin 5000) (q : Fin 128) :
    k1_pay1 (F := Ideal) x0 x1 x2 (ix2 p q)
      = max (x0 (ix2 p q) + x1 (ix1 q)) (Ideal.ofBits .f32 0x00000000#32) * x2 (ix2 (0 : Fin 1) q) := by
  unfold k1_pay1
  rw [shapeCast_self, shapeCast_self]
  show max (x0 (ix2 p q) + broadcastTo S5000x128 (shapeCast S1x128 x1 shapeCasts_S128_S1x128) broadcasts_S1x128_S5000x128 (ix2 p q))
      (Ideal.ofBits .f32 0x00000000#32) * broadcastTo S5000x128 x2 broadcasts_S1x128_S5000x128 (ix2 p q) = _
  rw [Cert.LibBiasRows.bias_rows (R := 5000) (n := 128) x1 shapeCasts_S128_S1x128 broadcasts_S1x128_S5000x128 p q,
    broadcastTo_1b_ab_apply (a := 5000) (b := 128) x2 broadcasts_S1x128_S5000x128 p q]

/-- The stored value at (p, q) is entry i of fin S B G when the staged blocks hold entry i of S, entry (i 1) of B and
    entry (0, i 1) of G. -/
theorem pay_eq_fin (S : S100000x128.Idx → EReal) (B : S128.Idx → EReal) (G : S1x128.Idx → EReal)
    (x0 : Vec Ideal S5000x128 .f32) (x1 : Vec Ideal S128 .f32) (x2 : Vec Ideal S1x128 .f32) (p : Fin 5000) (q : Fin 128)
    (i : S100000x128.Idx)
    (h0 : x0 (ix2 p q) = S i) (h1 : x1 (ix1 q) = B (ix1 (i 1))) (h2 : x2 (ix2 (0 : Fin 1) q) = G (ix2 (0 : Fin 1) (i 1))) :
    k1_pay1 (F := Ideal) x0 x1 x2 (ix2 p q) = fin S B G i := by
  rw [pay_at, h0, h1, h2]
  rfl

/-- The printed index maps over the grid: the aggregated array's and the output's blocks are block row t, the bias and
    the gate are staged whole. -/
theorem idx_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point t writes back is block t of fin of the three input arrays as the region finds them. -/
theorem flushed_eq (c : Dev nD) (t : Fin cfg1.N) :
    (dat1 (F := Ideal) V c).flushed 3 t = ((cfg1.win 3).blk t).view.read (Elt Ideal)
      (fin (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero hz]
  simp only [View.ld_unit_zero (S := S5000x128) hz, View.ld_unit_zero (S := S128) hz1, View.ld_unit_zero (S := S1x128) hz]
  obtain ⟨e0, e1, e2, e3, e4, e5, e6⟩ := idx_facts t
  funext j
  refine (congrArg (k1_pay1 (F := Ideal) (iblk1 V c 0 t) (iblk1 V c 1 t) (iblk1 V c 2 t)) (eq_ix2 j)).trans ?_
  refine pay_eq_fin (V c (Pipeline.arrRef spec1 0)) (V c (Pipeline.arrRef spec1 1)) (V c (Pipeline.arrRef spec1 2))
    (iblk1 V c 0 t) (iblk1 V c 1 t) (iblk1 V c 2 t) (j 0) (j 1) (((cfg1.win 3).blk t).view.emb j) ?_ ?_ ?_
  · show V c (Pipeline.arrRef spec1 0) (((cfg1.win 0).blk t).view.emb (ix2 (j 0) (j 1))) = _
    refine congrArg (V c (Pipeline.arrRef spec1 0)) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  · show V c (Pipeline.arrRef spec1 1) (((cfg1.win 1).blk t).view.emb (ix1 (j 1))) = _
    refine congrArg (V c (Pipeline.arrRef spec1 1)) (funext fun a => Fin.ext ?_)
    match a with
    | ⟨0, _⟩ => show win1_1.index t (0 : Fin 1) * 128 + 1 * (j 1).val = win1_3.index t (1 : Fin 2) * 128 + 1 * (j 1).val; omega
  · show V c (Pipeline.arrRef spec1 2) (((cfg1.win 2).blk t).view.emb (ix2 (0 : Fin 1) (j 1))) = _
    refine congrArg (V c (Pipeline.arrRef spec1 2)) (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

/-- An index of the output array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole (Pipeline.arrRef spec1 3)).slice (win1_3.rect t)).set ↔ _
  rw [View.set_slice_whole, Rect.mem_set_unit]
  exact Iff.rfl

/-- Every row is in the block of the point row / 5000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, e2, e3, e4, e5, e6⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the region is fin of the three input arrays as the region finds them. -/
theorem final (c : Dev nD) : (dat1 (F := Ideal) V c).arrAt 3 cfg1.N
    = fin (V c (Pipeline.arrRef spec1 0)) (V c (Pipeline.arrRef spec1 1)) (V c (Pipeline.arrRef spec1 2)) :=
  (dat1 (F := Ideal) V c).arrAt_eq_of_cover 3 _ (fun t _ => flushed_eq V c t) (fun i => cover i)

end Cert.KernelIdeal.Region1

end
-- ==== Proof.Region2.lean ====
/-
  Region 2 (a product of the node features with a weight matrix, twenty blocks of 5000 rows): what its output
  array holds after the region, for any contents V the region is entered from.

  Point t stages rows 5000 t .. 5000 t + 4999 of the features and the whole weight matrix, multiplies them on the
  matrix unit into zero and writes the product back to the same rows of the output. A change of float format is
  the identity on extended reals, so the written block is the block of mm x w; the twenty blocks cover the array.
-/
import proofs.«117620_j43267500540702_1_alg».proof.Proof.Gen.KernelIdeal.Frame
import proofs.«117620_j43267500540702_1_alg».proof.Proof.LayerSpec
import proofs.«117620_j43267500540702_1_alg».proof.Proof.LibPlainDot
import Idealize.ShloMosaic.Lib.Pipeline.Value
import Idealize.ShloMosaic.Lib.ValueIdx

set_option maxRecDepth 16384
set_option maxHeartbeats 4000000

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.Gcn
open scoped BigOperators

theorem hz : (![0, 0] : Fin 2 → Nat) = fun _ => 0 := funext fun a => by fin_cases a <;> rfl

/-- The body's stored value at (p, q): the sum over k of the features' block at (p, k) times the weights at (k, q). -/
theorem pay_at (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  rw [shapeCast_self]
  exact Cert.LibPlainDot.matmul_plain (R := 5000) (K := 128) (N := 128) x0 x1 p q

/-- The stored value at (p, q) is entry i of mm X W when the staged blocks hold row (i 0) of X and column (i 1) of W. -/
theorem pay_eq_mm (X : S100000x128.Idx → EReal) (Wt : S128x128.Idx → EReal)
    (x0 : Vec Ideal S5000x128 .f32) (x1 : Vec Ideal S128x128 .f32) (p : Fin 5000) (q : Fin 128) (i : S100000x128.Idx)
    (hx0 : ∀ k : Fin 128, x0 (ix2 p k) = X (ix2 (i 0) k)) (hx1 : ∀ k : Fin 128, x1 (ix2 k q) = Wt (ix2 k (i 1))) :
    k2_pay1 (F := Ideal) x0 x1 (ix2 p q) = mm X Wt i := by
  rw [pay_at]
  exact Finset.sum_congr rfl fun k _ => by rw [hx0 k, hx1 k]

/-- The printed index maps over the grid: the features' and the output's blocks are block row t, the weights' block
    is the whole matrix. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of mm of the two input arrays as the region finds them. -/
theorem flushed_eq (c : Dev nD) (t : Fin cfg2.N) :
    (dat2 (F := Ideal) V c).flushed 2 t = ((cfg2.win 2).blk t).view.read (Elt Ideal)
      (mm (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  refine (congrArg (k2_pay1 (F := Ideal) (iblk2 V c 0 t) (iblk2 V c 1 t)) (eq_ix2 j)).trans ?_
  refine pay_eq_mm (V c (Pipeline.arrRef spec2 0)) (V c (Pipeline.arrRef spec2 1)) (iblk2 V c 0 t) (iblk2 V c 1 t)
    (j 0) (j 1) (((cfg2.win 2).blk t).view.emb j) (fun k => ?_) (fun k => ?_)
  · show V c (Pipeline.arrRef spec2 0) (((cfg2.win 0).blk t).view.emb (ix2 (j 0) k)) = _
    refine congrArg (V c (Pipeline.arrRef spec2 0)) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c (Pipeline.arrRef spec2 1) (((cfg2.win 1).blk t).view.emb (ix2 k (j 1))) = _
    refine congrArg (V c (Pipeline.arrRef spec2 1)) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the output array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole (Pipeline.arrRef spec2 2)).slice (win2_2.rect t)).set ↔ _
  rw [View.set_slice_whole, Rect.mem_set_unit]
  exact Iff.rfl

/-- Every row is in the block of the point row / 5000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨e0, e1, e2, e3, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region is mm of the two input arrays as the region finds them. -/
theorem final (c : Dev nD) : (dat2 (F := Ideal) V c).arrAt 2 cfg2.N
    = mm (V c (Pipeline.arrRef spec2 0)) (V c (Pipeline.arrRef spec2 1)) :=
  (dat2 (F := Ideal) V c).arrAt_eq_of_cover 2 _ (fun t _ => flushed_eq V c t) (fun i => cover i)

end Cert.KernelIdeal.Region2

end
-- ==== Proof.Region3.lean ====
/-
  Region 3 (bias, rectifier and gate on twenty blocks of 5000 rows): what its output array holds after the region,
  for any contents V the region is entered from.

  Point t stages rows 5000 t .. 5000 t + 4999 of the aggregated array, the whole bias vector and the whole gate row,
  computes max(s + b, 0) * g with the bias and the gate laid along the rows, and writes the block back to the same
  rows of the output: the block of fin s b g. The twenty blocks cover the array.
-/
import proofs.«117620_j43267500540702_1_alg».proof.Proof.Gen.KernelIdeal.Frame
import proofs.«117620_j43267500540702_1_alg».proof.Proof.LayerSpec
import proofs.«117620_j43267500540702_1_alg».proof.Proof.LibBiasRows
import Idealize.ShloMosaic.Lib.Pipeline.Value
import Idealize.ShloMosaic.Lib.ValueLayout
import Idealize.ShloMosaic.Lib.ValueIdx

set_option maxRecDepth 16384
set_option maxHeartbeats 4000000

noncomputable section

namespace Cert.KernelIdeal.Region3

open Idealize.ShloMosaic Idealize.ShloMosaic.TcCoe Idealize.ShloMosaic.ValueIdx Idealize.SL.Sem
open Idealize.ShloMosaic.Pipeline (Dat)
open Cert.KernelIdeal Cert.KernelIdeal.Gen Cert.Gcn
open scoped BigOperators

theorem hz : (![0, 0] : Fin 2 → Nat) = fun _ => 0 := funext fun a => by fin_cases a <;> rfl
theorem hz1 : (![0] : Fin 1 → Nat) = fun _ => 0 := funext fun a => by fin_cases a; rfl

/-- The body's stored value at (p, q): max(s(p, q) + b(q), 0) * g(0, q). -/
theorem pay_at (x0 : Vec Ideal S5000x128 .f32) (x1 : Vec Ideal S128 .f32) (x2 : Vec Ideal S1x128 .f32) (p : Fin 5000) (q : Fin 128) :
    k3_pay1 (F := Ideal) x0 x1 x2 (ix2 p q)
      = max (x0 (ix2 p q) + x1 (ix1 q)) (Ideal.ofBits .f32 0x00000000#32) * x2 (ix2 (0 : Fin 1) q) := by
  unfold k3_pay1
  rw [shapeCast_self, shapeCast_self]
  show max (x0 (ix2 p q) + broadcastTo S5000x128 (shapeCast S1x128 x1 shapeCasts_S128_S1x128) broadcasts_S1x128_S5000x128 (ix2 p q))
      (Ideal.ofBits .f32 0x00000000#32) * broadcastTo S5000x128 x2 broadcasts_S1x128_S5000x128 (ix2 p q) = _
  rw [Cert.LibBiasRows.bias_rows (R := 5000) (n := 128) x1 shapeCasts_S128_S1x128 broadcasts_S1x128_S5000x128 p q,
    broadcastTo_1b_ab_apply (a := 5000) (b := 128) x2 broadcasts_S1x128_S5000x128 p q]

/-- The stored value at (p, q) is entry i of fin S B G when the staged blocks hold entry i of S, entry (i 1) of B and
    entry (0, i 1) of G. -/
theorem pay_eq_fin (S : S100000x128.Idx → EReal) (B : S128.Idx → EReal) (G : S1x128.Idx → EReal)
    (x0 : Vec Ideal S5000x128 .f32) (x1 : Vec Ideal S128 .f32) (x2 : Vec Ideal S1x128 .f32) (p : Fin 5000) (q : Fin 128)
    (i : S100000x128.Idx)
    (h0 : x0 (ix2 p q) = S i) (h1 : x1 (ix1 q) = B (ix1 (i 1))) (h2 : x2 (ix2 (0 : Fin 1) q) = G (ix2 (0 : Fin 1) (i 1))) :
    k3_pay1 (F := Ideal) x0 x1 x2 (ix2 p q) = fin S B G i := by
  rw [pay_at, h0, h1, h2]
  rfl

/-- The printed index maps over the grid: the aggregated array's and the output's blocks are block row t, the bias and
    the gate are staged whole. -/
theorem idx_facts : ∀ t : Fin cfg3.N, win3_0.index t (0 : Fin 2) = t.val ∧ win3_0.index t (1 : Fin 2) = 0
    ∧ win3_1.index t (0 : Fin 1) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- What point t writes back is block t of fin of the three input arrays as the region finds them. -/
theorem flushed_eq (c : Dev nD) (t : Fin cfg3.N) :
    (dat3 (F := Ideal) V c).flushed 3 t = ((cfg3.win 3).blk t).view.read (Elt Ideal)
      (fin (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero hz]
  simp only [View.ld_unit_zero (S := S5000x128) hz, View.ld_unit_zero (S := S128) hz1, View.ld_unit_zero (S := S1x128) hz]
  obtain ⟨e0, e1, e2, e3, e4, e5, e6⟩ := idx_facts t
  funext j
  refine (congrArg (k3_pay1 (F := Ideal) (iblk3 V c 0 t) (iblk3 V c 1 t) (iblk3 V c 2 t)) (eq_ix2 j)).trans ?_
  refine pay_eq_fin (V c (Pipeline.arrRef spec3 0)) (V c (Pipeline.arrRef spec3 1)) (V c (Pipeline.arrRef spec3 2))
    (iblk3 V c 0 t) (iblk3 V c 1 t) (iblk3 V c 2 t) (j 0) (j 1) (((cfg3.win 3).blk t).view.emb j) ?_ ?_ ?_
  · show V c (Pipeline.arrRef spec3 0) (((cfg3.win 0).blk t).view.emb (ix2 (j 0) (j 1))) = _
    refine congrArg (V c (Pipeline.arrRef spec3 0)) (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  · show V c (Pipeline.arrRef spec3 1) (((cfg3.win 1).blk t).view.emb (ix1 (j 1))) = _
    refine congrArg (V c (Pipeline.arrRef spec3 1)) (funext fun a => Fin.ext ?_)
    match a with
    | ⟨0, _⟩ => show win3_1.index t (0 : Fin 1) * 128 + 1 * (j 1).val = win3_3.index t (1 : Fin 2) * 128 + 1 * (j 1).val; omega
  · show V c (Pipeline.arrRef spec3 2) (((cfg3.win 2).blk t).view.emb (ix2 (0 : Fin 1) (j 1))) = _
    refine congrArg (V c (Pipeline.arrRef spec3 2)) (funext fun a => Fin.ext ?_)
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega

/-- An index of the output array is in point t's block iff each coordinate is in the block's range on its axis. -/
theorem mem_blk (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole (Pipeline.arrRef spec3 3)).slice (win3_3.rect t)).set ↔ _
  rw [View.set_slice_whole, Rect.mem_set_unit]
  exact Iff.rfl

/-- Every row is in the block of the point row / 5000. -/
theorem cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  obtain ⟨e0, e1, e2, e3, e4, e5, e6⟩ := idx_facts t
  have ht : t.val = (i 0).val / 5000 := rfl
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The output array after the region is fin of the three input arrays as the region finds them. -/
theorem final (c : Dev nD) : (dat3 (F := Ideal) V c).arrAt 3 cfg3.N
    = fin (V c (Pipeline.arrRef spec3 0)) (V c (Pipeline.arrRef spec3 1)) (V c (Pipeline.arrRef spec3 2)) :=
  (dat3 (F := Ideal) V c).arrAt_eq_of_cover 3 _ (fun t _ => flushed_eq V c t) (fun i => cover i)

end Cert.KernelIdeal.Region3

end
-- ==== Proof.Region4.lean ====
/-
  Region 4 (a product of the node features with a weight matrix, twenty blocks of 5000 rows): what its output
  array holds after the region, for any contents V the region is entered from.

  Point t stages rows 5000 t .. 5000 t + 4999 of the features and the whole weight matrix, multiplies them on the
  matrix unit into zero and writes the product back to the same rows of the output. A change of float format is
  the identity on extended reals, so the written block is the block of mm x w; the twenty blocks cover the array.
-/
import proofs.«117620_j43267500540702_1_alg».proof.Proof.Gen.KernelIdeal.Frame
import proofs.«117620_j43267500540702_1_alg».proof.Proof.LayerSpec
import proofs.«117620_j43267500540702_1_alg».proof.Proof.LibPlainDot
import Idealize.ShloMosaic.Lib.Pipeline.Value
import Idealize.ShloMosaic.Lib.ValueIdx

set_option maxRecDepth 16384
set_option maxHeartbeats 4000000

noncomputable section

namespace Cert.KernelIdeal.Region4

open Idealize.ShloMosaic Idealize.ShloMosaic.TcCoe Idealize.ShloMosaic.ValueIdx Idealize.SL.Sem
open Idealize.ShloMosaic.Pipeline (Dat)
open Cert.KernelIdeal Cert.KernelIdeal.Gen Cert.Gcn
open scoped BigOperators

theorem hz : (![0, 0] : Fin 2 → Nat) = fun _ => 0 := funext fun a => by fin_cases a <;> rfl

/-- The body's stored value at (p, q): the sum over k of the features' block at (p, k) times the weights at (k, q). -/
theorem pay_at (x0 : Vec Ideal S5000x128 .f32) (x1 : Vec Ideal S128x128 .f32) (p : Fin 5000) (q : Fin 128) :
    k4_pay1 (F := Ideal) x0 x1 (ix2 p q) = ∑ k : Fin 128, x0 (ix2 p k) * x1 (ix2 k q) := by
  unfold k4_pay1
  rw [shapeCast_self]
  exact Cert.LibPlainDot.matmul_plain (R := 5000) (K := 128) (N := 128) x0 x1 p q

/-- The stored value at (p, q) is entry i of mm X W when the staged blocks hold row (i 0) of X and column (i 1) of W. -/
theorem pay_eq_mm (X : S100000x128.Idx → EReal) (Wt : S128x128.Idx → EReal)
    (x0 : Vec Ideal S5000x128 .f32) (x1 : Vec Ideal S128x128 .f32) (p : Fin 5000) (q : Fin 128) (i : S100000x128.Idx)
    (hx0 : ∀ k : Fin 128, x0 (ix2 p k) = X (ix2 (i 0) k)) (hx1 : ∀ k : Fin 128, x1 (ix2 k q) = Wt (ix2 k (i 1))) :
    k4_pay1 (F := Ideal) x0 x1 (ix2 p q) = mm X Wt i := by
  rw [pay_at]
  exact Finset.sum_congr rfl fun k _ => by rw [hx0 k, hx1 k]

/-- The printed index maps over the grid: the features' and the output's blocks are block row t, the weights' block
    is the whole matrix. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What point t writes back is block t of mm of the two input arrays as the region finds them. -/
theorem flushed_eq (c : Dev nD) (t : Fin cfg4.N) :
    (dat4 (F := Ideal) V c).flushed 2 t = ((cfg4.win 2).blk t).view.read (Elt Ideal)
      (mm (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero hz]
  simp only [View.ld_unit_zero (S := S5000x128) hz, View.ld_unit_zero (S := S128x128) hz]
  obtain ⟨e0, e1, e2, e3, e4, e5⟩ := idx_facts t
  funext j
  refine (congrArg (k4_pay1 (F := Ideal) (iblk4 V c 0 t) (iblk4 V c 1 t)) (eq_ix2 j)).trans ?_
  refine pay_eq_mm (V c (Pipeline.arrRef spec4 0)) (V c (Pipeline.arrRef spec4 1)) (iblk4 V c 0 t) (iblk4 V c 1 t)
    (j 0) (j 1) (((cfg4.win 2).blk t).view.emb j) (fun k => ?_) (fun k => ?_)
  · show V c (Pipeline.arrRef spec4 0) (((cfg4.win 0).blk t).view.emb (ix2 (j 0) k)) = _
    refine congrArg (V c (Pipeline.arrRef spec4 0)) (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  · show V c (Pipeline.arrRef spec4 1) (((cfg4.win 1).blk t).view.emb (ix2 k (j 1))) = _
    refine congrArg (V c (Pipeline.arrRef spec4 1)) (funext fun a => Fin.ext ?_)
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega

/-- An index of the output array is in point t's block iff each coordinate is in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole (Pipeline.arrRef spec4 2)).slice (win4_2.rect t)).set ↔ _
  rw [View.set_slice_whole, Rect.mem_set_unit]
  exact Iff.rfl

/-- Every row is in the block of the point row / 5000. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨e0, e1, e2, e3, e4, e5⟩ := idx_facts t
  have ht : t.val = (i 0).val / 5000 := rfl
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The output array after the region is mm of the two input arrays as the region finds them. -/
theorem final (c : Dev nD) : (dat4 (F := Ideal) V c).arrAt 2 cfg4.N
    = mm (V c (Pipeline.arrRef spec4 0)) (V c (Pipeline.arrRef spec4 1)) :=
  (dat4 (F := Ideal) V c).arrAt_eq_of_cover 2 _ (fun t _ => flushed_eq V c t) (fun i => cover i)

end Cert.KernelIdeal.Region4

end
-- ==== Proof.Region5.lean ====
/-
  Region 5 (bias, rectifier and gate on twenty blocks of 5000 rows): what its output array holds after the region,
  for any contents V the region is entered from.

  Point t stages rows 5000 t .. 5000 t + 4999 of the aggregated array, the whole bias vector and the whole gate row,
  computes max(s + b, 0) * g with the bias and the gate laid along the rows, and writes the block back to the same
  rows of the output: the block of fin s b g. The twenty blocks cover the array.
-/
import proofs.«117620_j43267500540702_1_alg».proof.Proof.Gen.KernelIdeal.Frame
import proofs.«117620_j43267500540702_1_alg».proof.Proof.LayerSpec
import proofs.«117620_j43267500540702_1_alg».proof.Proof.LibBiasRows
import Idealize.ShloMosaic.Lib.Pipeline.Value
import Idealize.ShloMosaic.Lib.ValueLayout
import Idealize.ShloMosaic.Lib.ValueIdx

set_option maxRecDepth 16384
set_option maxHeartbeats 4000000

noncomputable section

namespace Cert.KernelIdeal.Region5

open Idealize.ShloMosaic Idealize.ShloMosaic.TcCoe Idealize.ShloMosaic.ValueIdx Idealize.SL.Sem
open Idealize.ShloMosaic.Pipeline (Dat)
open Cert.KernelIdeal Cert.KernelIdeal.Gen Cert.Gcn
open scoped BigOperators

theorem hz : (![0, 0] : Fin 2 → Nat) = fun _ => 0 := funext fun a => by fin_cases a <;> rfl
theorem hz1 : (![0] : Fin 1 → Nat) = fun _ => 0 := funext fun a => by fin_cases a; rfl

/-- The body's stored value at (p, q): max(s(p, q) + b(q), 0) * g(0, q). -/
theorem pay_at (x0 : Vec Ideal S5000x128 .f32) (x1 : Vec Ideal S128 .f32) (x2 : Vec Ideal S1x128 .f32) (p : Fin 5000) (q : Fin 128) :
    k5_pay1 (F := Ideal) x0 x1 x2 (ix2 p q)
      = max (x0 (ix2 p q) + x1 (ix1 q)) (Ideal.ofBits .f32 0x00000000#32) * x2 (ix2 (0 : Fin 1) q) := by
  unfold k5_pay1
  rw [shapeCast_self, shapeCast_self]
  show max (x0 (ix2 p q) + broadcastTo S5000x128 (shapeCast S1x128 x1 shapeCasts_S128_S1x128) broadcasts_S1x128_S5000x128 (ix2 p q))
      (Ideal.ofBits .f32 0x00000000#32) * broadcastTo S5000x128 x2 broadcasts_S1x128_S5000x128 (ix2 p q) = _
  rw [Cert.LibBiasRows.bias_rows (R := 5000) (n := 128) x1 shapeCasts_S128_S1x128 broadcasts_S1x128_S5000x128 p q,
    broadcastTo_1b_ab_apply (a := 5000) (b := 128) x2 broadcasts_S1x128_S5000x128 p q]

/-- The stored value at (p, q) is entry i of fin S B G when the staged blocks hold entry i of S, entry (i 1) of B and
    entry (0, i 1) of G. -/
theorem pay_eq_fin (S : S100000x128.Idx → EReal) (B : S128.Idx → EReal) (G : S1x128.Idx → EReal)
    (x0 : Vec Ideal S5000x128 .f32) (x1 : Vec Ideal S128 .f32) (x2 : Vec Ideal S1x128 .f32) (p : Fin 5000) (q : Fin 128)
    (i : S100000x128.Idx)
    (h0 : x0 (ix2 p q) = S i) (h1 : x1 (ix1 q) = B (ix1 (i 1))) (h2 : x2 (ix2 (0 : Fin 1) q) = G (ix2 (0 : Fin 1) (i 1))) :
    k5_pay1 (F := Ideal) x0 x1 x2 (ix2 p q) = fin S B G i := by
  rw [pay_at, h0, h1, h2]
  rfl

/-- The printed index maps over the grid: the aggregated array's and the output's blocks are block row t, the bias and
    the gate are staged whole. -/
theorem idx_facts : ∀ t : Fin cfg5.N, win5_0.index t (0 : Fin 2) = t.val ∧ win5_0.index t (1 : Fin 2) = 0
    ∧ win5_1.index t (0 : Fin 1) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b))

/-- What point t writes back is block t of fin of the three input arrays as the region finds them. -/
theorem flushed_eq (c : Dev nD) (t : Fin cfg5.N) :
    (dat5 (F := Ideal) V c).flushed 3 t = ((cfg5.win 3).blk t).view.read (Elt Ideal)
      (fin (V c (Pipeline.arrRef spec5 0)) (V c (Pipeline.arrRef spec5 1)) (V c (Pipeline.arrRef spec5 2))) := by
  show (cfg5.win 3).cut (grid5.coords t) ((dat5 (F := Ideal) V c).after 3 t) = _
  rw [after5_3]
  unfold out5_3
  rw [View.canon_unit_zero hz]
  simp only [View.ld_unit_zero (S := S5000x128) hz, View.ld_unit_zero (S := S128) hz1, View.ld_unit_zero (S := S1x128) hz]
  obtain ⟨e0, e1, e2, e3, e4, e5, e6⟩ := idx_facts t
  funext j
  refine (congrArg (k5_pay1 (F := Ideal) (iblk5 V c 0 t) (iblk5 V c 1 t) (iblk5 V c 2 t)) (eq_ix2 j)).trans ?_
  refine pay_eq_fin (V c (Pipeline.arrRef spec5 0)) (V c (Pipeline.arrRef spec5 1)) (V c (Pipeline.arrRef spec5 2))
    (iblk5 V c 0 t) (iblk5 V c 1 t) (iblk5 V c 2 t) (j 0) (j 1) (((cfg5.win 3).blk t).view.emb j) ?_ ?_ ?_
  · show V c (Pipeline.arrRef spec5 0) (((cfg5.win 0).blk t).view.emb (ix2 (j 0) (j 1))) = _
    refine congrArg (V c (Pipeline.arrRef spec5 0)) (funext fun a => Fin.ext ?_)
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * (j 1).val = win5_3.index t (1 : Fin 2) * 128 + 1 * (j 1).val; omega
  · show V c (Pipeline.arrRef spec5 1) (((cfg5.win 1).blk t).view.emb (ix1 (j 1))) = _
    refine congrArg (V c (Pipeline.arrRef spec5 1)) (funext fun a => Fin.ext ?_)
    match a with
    | ⟨0, _⟩ => show win5_1.index t (0 : Fin 1) * 128 + 1 * (j 1).val = win5_3.index t (1 : Fin 2) * 128 + 1 * (j 1).val; omega
  · show V c (Pipeline.arrRef spec5 2) (((cfg5.win 2).blk t).view.emb (ix2 (0 : Fin 1) (j 1))) = _
    refine congrArg (V c (Pipeline.arrRef spec5 2)) (funext fun a => Fin.ext ?_)
    match a with
    | ⟨0, _⟩ => show win5_2.index t (0 : Fin 2) * 1 + 1 * 0 = 0; omega
    | ⟨1, _⟩ => show win5_2.index t (1 : Fin 2) * 128 + 1 * (j 1).val = win5_3.index t (1 : Fin 2) * 128 + 1 * (j 1).val; omega

/-- An index of the output array is in point t's block iff each coordinate is in the block's range on its axis. -/
theorem mem_blk (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole (Pipeline.arrRef spec5 3)).slice (win5_3.rect t)).set ↔ _
  rw [View.set_slice_whole, Rect.mem_set_unit]
  exact Iff.rfl

/-- Every row is in the block of the point row / 5000. -/
theorem cover (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  obtain ⟨e0, e1, e2, e3, e4, e5, e6⟩ := idx_facts t
  have ht : t.val = (i 0).val / 5000 := rfl
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- The output array after the region is fin of the three input arrays as the region finds them. -/
theorem final (c : Dev nD) : (dat5 (F := Ideal) V c).arrAt 3 cfg5.N
    = fin (V c (Pipeline.arrRef spec5 0)) (V c (Pipeline.arrRef spec5 1)) (V c (Pipeline.arrRef spec5 2)) :=
  (dat5 (F := Ideal) V c).arrAt_eq_of_cover 3 _ (fun t _ => flushed_eq V c t) (fun i => cover i)

end Cert.KernelIdeal.Region5

end
-- ==== Proof.KernelValue.lean ====
/-
  The idealized kernel's result as a function of the argument arrays.

  The buffer contents at the program's boundaries are a fold: a stretch of host operations applies them, a region
  replaces its arrays by what its write-backs leave. Read from the last boundary back to the launch, the result is
  three layers, each "multiply by the layer's weights, aggregate over the extended edge list, add the bias,
  rectify, gate", on the extended lists and the gate row that the first stretch computed from the edge list, the
  time stamp and the gate's weights. A buffer that a region or a stretch does not write is what it was before it.
-/
import proofs.«117620_j43267500540702_1_alg».proof.Proof.Gen.KernelIdeal.Frame
import proofs.«117620_j43267500540702_1_alg».proof.Proof.HostStages
import proofs.«117620_j43267500540702_1_alg».proof.Proof.Region0
import proofs.«117620_j43267500540702_1_alg».proof.Proof.Region1
import proofs.«117620_j43267500540702_1_alg».proof.Proof.Region2
import proofs.«117620_j43267500540702_1_alg».proof.Proof.Region3
import proofs.«117620_j43267500540702_1_alg».proof.Proof.Region4
import proofs.«117620_j43267500540702_1_alg».proof.Proof.Region5
import proofs.«117620_j43267500540702_1_alg».proof.Proof.LayerSpec
import Idealize.ShloMosaic.Lib.StableHlo.Run
import Idealize.ShloMosaic.PureOps.Ideal

set_option maxRecDepth 16384
set_option maxHeartbeats 4000000

noncomputable section

namespace Cert.KernelIdeal.KernelValue

open Idealize.ShloMosaic Idealize.ShloMosaic.TcCoe Idealize.ShloMosaic.Tactic Idealize.SL.Sem Idealize.ShloMosaic.StableHlo
open Idealize.ShloMosaic.Pipeline (Dat)
open Cert.KernelIdeal Cert.KernelIdeal.Gen Cert.KernelIdeal.HostStages Cert.Gcn

/-- A stretch of host operations leaves a buffer none of them writes as it was. -/
macro "host_skip" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- One layer of the kernel program: product, aggregation over the extended edge list, bias, rectifier, gate. -/
def layerK (ei : S2x600000.Idx → BitVec 32) (g : S1x128.Idx → EReal) (x : S100000x128.Idx → EReal)
    (w : S128x128.Idx → EReal) (b : S128.Idx → EReal) : S100000x128.Idx → EReal :=
  fin (agg (srcExt ei) (dstExt ei) (normExt ei) (mm x w)) b g

theorem mm_congr {x x' : S100000x128.Idx → EReal} {w w' : S128x128.Idx → EReal} (hx : x = x') (hw : w = w') :
    mm x w = mm x' w' := by subst hx hw; rfl
theorem fin_congr {s s' : S100000x128.Idx → EReal} {b b' : S128.Idx → EReal} {g g' : S1x128.Idx → EReal}
    (hs : s = s') (hb : b = b') (hg : g = g') : fin s b g = fin s' b' g' := by subst hs hb hg; rfl
theorem agg_congr {a a' b b' : S700000.Idx → BitVec 32} {n n' : S700000.Idx → EReal} {h h' : S100000x128.Idx → EReal}
    (ha : a = a') (hb : b = b') (hn : n = n') (hh : h = h') : agg a b n h = agg a' b' n' h' := by subst ha hb hn hh; rfl

variable (m : (ℓ : Loc nD τ sig) → Buf (Elt Ideal) ℓ) (ρ : Dev nD → PrngReg)

/-! ## Buffers carried unchanged from the first region's entry to a later boundary -/

theorem c2_v32 (c : Dev nD) : W2 m ρ c (Proc.devRef .tc main_v32) = W1 m ρ c (Proc.devRef .tc main_v32) :=
  (W2_of_ne m ρ c main_v32 (by decide))

theorem c2_v33 (c : Dev nD) : W2 m ρ c (Proc.devRef .tc main_v33) = W1 m ρ c (Proc.devRef .tc main_v33) :=
  (W2_of_ne m ρ c main_v33 (by decide))

theorem c2_v35 (c : Dev nD) : W2 m ρ c (Proc.devRef .tc main_v35) = W1 m ρ c (Proc.devRef .tc main_v35) :=
  (W2_of_ne m ρ c main_v35 (by decide))

theorem c3_arg4 (c : Dev nD) : W3 m ρ c (Proc.devRef .tc main_arg4) = W1 m ρ c (Proc.devRef .tc main_arg4) :=
  ((show W3 m ρ c (Proc.devRef .tc main_arg4) = W2 m ρ c (Proc.devRef .tc main_arg4) from by host_skip hostOps1).trans (W2_of_ne m ρ c main_arg4 (by decide)))

theorem c3_v49 (c : Dev nD) : W3 m ρ c (Proc.devRef .tc main_v49) = W1 m ρ c (Proc.devRef .tc main_v49) :=
  ((show W3 m ρ c (Proc.devRef .tc main_v49) = W2 m ρ c (Proc.devRef .tc main_v49) from by host_skip hostOps1).trans (W2_of_ne m ρ c main_v49 (by decide)))

theorem c4_arg5 (c : Dev nD) : W4 m ρ c (Proc.devRef .tc main_arg5) = W1 m ρ c (Proc.devRef .tc main_arg5) :=
  ((W4_of_ne m ρ c main_arg5 (by decide)).trans ((show W3 m ρ c (Proc.devRef .tc main_arg5) = W2 m ρ c (Proc.devRef .tc main_arg5) from by host_skip hostOps1).trans (W2_of_ne m ρ c main_arg5 (by decide))))

theorem c5_v32 (c : Dev nD) : W5 m ρ c (Proc.devRef .tc main_v32) = W1 m ρ c (Proc.devRef .tc main_v32) :=
  ((W5_of_ne m ρ c main_v32 (by decide)).trans ((W4_of_ne m ρ c main_v32 (by decide)).trans ((show W3 m ρ c (Proc.devRef .tc main_v32) = W2 m ρ c (Proc.devRef .tc main_v32) from by host_skip hostOps1).trans (W2_of_ne m ρ c main_v32 (by decide)))))

theorem c5_v33 (c : Dev nD) : W5 m ρ c (Proc.devRef .tc main_v33) = W1 m ρ c (Proc.devRef .tc main_v33) :=
  ((W5_of_ne m ρ c main_v33 (by decide)).trans ((W4_of_ne m ρ c main_v33 (by decide)).trans ((show W3 m ρ c (Proc.devRef .tc main_v33) = W2 m ρ c (Proc.devRef .tc main_v33) from by host_skip hostOps1).trans (W2_of_ne m ρ c main_v33 (by decide)))))

theorem c5_v35 (c : Dev nD) : W5 m ρ c (Proc.devRef .tc main_v35) = W1 m ρ c (Proc.devRef .tc main_v35) :=
  ((W5_of_ne m ρ c main_v35 (by decide)).trans ((W4_of_ne m ρ c main_v35 (by decide)).trans ((show W3 m ρ c (Proc.devRef .tc main_v35) = W2 m ρ c (Proc.devRef .tc main_v35) from by host_skip hostOps1).trans (W2_of_ne m ρ c main_v35 (by decide)))))

theorem c6_arg6 (c : Dev nD) : W6 m ρ c (Proc.devRef .tc main_arg6) = W1 m ρ c (Proc.devRef .tc main_arg6) :=
  ((show W6 m ρ c (Proc.devRef .tc main_arg6) = W5 m ρ c (Proc.devRef .tc main_arg6) from by host_skip hostOps3).trans ((W5_of_ne m ρ c main_arg6 (by decide)).trans ((W4_of_ne m ρ c main_arg6 (by decide)).trans ((show W3 m ρ c (Proc.devRef .tc main_arg6) = W2 m ρ c (Proc.devRef .tc main_arg6) from by host_skip hostOps1).trans (W2_of_ne m ρ c main_arg6 (by decide))))))

theorem c6_v49 (c : Dev nD) : W6 m ρ c (Proc.devRef .tc main_v49) = W1 m ρ c (Proc.devRef .tc main_v49) :=
  ((show W6 m ρ c (Proc.devRef .tc main_v49) = W5 m ρ c (Proc.devRef .tc main_v49) from by host_skip hostOps3).trans ((W5_of_ne m ρ c main_v49 (by decide)).trans (((W4_arr m ρ c 2).trans (((dat1 (V3 m ρ) c).arrAt_in 2 rfl _).trans (A_eq1 (V3 m ρ) c 2))).trans ((show W3 m ρ c (Proc.devRef .tc main_v49) = W2 m ρ c (Proc.devRef .tc main_v49) from by host_skip hostOps1).trans (W2_of_ne m ρ c main_v49 (by decide))))))

theorem c7_arg7 (c : Dev nD) : W7 m ρ c (Proc.devRef .tc main_arg7) = W1 m ρ c (Proc.devRef .tc main_arg7) :=
  ((W7_of_ne m ρ c main_arg7 (by decide)).trans ((show W6 m ρ c (Proc.devRef .tc main_arg7) = W5 m ρ c (Proc.devRef .tc main_arg7) from by host_skip hostOps3).trans ((W5_of_ne m ρ c main_arg7 (by decide)).trans ((W4_of_ne m ρ c main_arg7 (by decide)).trans ((show W3 m ρ c (Proc.devRef .tc main_arg7) = W2 m ρ c (Proc.devRef .tc main_arg7) from by host_skip hostOps1).trans (W2_of_ne m ρ c main_arg7 (by decide)))))))

theorem c8_v32 (c : Dev nD) : W8 m ρ c (Proc.devRef .tc main_v32) = W1 m ρ c (Proc.devRef .tc main_v32) :=
  ((W8_of_ne m ρ c main_v32 (by decide)).trans ((W7_of_ne m ρ c main_v32 (by decide)).trans ((show W6 m ρ c (Proc.devRef .tc main_v32) = W5 m ρ c (Proc.devRef .tc main_v32) from by host_skip hostOps3).trans ((W5_of_ne m ρ c main_v32 (by decide)).trans ((W4_of_ne m ρ c main_v32 (by decide)).trans ((show W3 m ρ c (Proc.devRef .tc main_v32) = W2 m ρ c (Proc.devRef .tc main_v32) from by host_skip hostOps1).trans (W2_of_ne m ρ c main_v32 (by decide))))))))

theorem c8_v33 (c : Dev nD) : W8 m ρ c (Proc.devRef .tc main_v33) = W1 m ρ c (Proc.devRef .tc main_v33) :=
  ((W8_of_ne m ρ c main_v33 (by decide)).trans ((W7_of_ne m ρ c main_v33 (by decide)).trans ((show W6 m ρ c (Proc.devRef .tc main_v33) = W5 m ρ c (Proc.devRef .tc main_v33) from by host_skip hostOps3).trans ((W5_of_ne m ρ c main_v33 (by decide)).trans ((W4_of_ne m ρ c main_v33 (by decide)).trans ((show W3 m ρ c (Proc.devRef .tc main_v33) = W2 m ρ c (Proc.devRef .tc main_v33) from by host_skip hostOps1).trans (W2_of_ne m ρ c main_v33 (by decide))))))))

theorem c8_v35 (c : Dev nD) : W8 m ρ c (Proc.devRef .tc main_v35) = W1 m ρ c (Proc.devRef .tc main_v35) :=
  ((W8_of_ne m ρ c main_v35 (by decide)).trans ((W7_of_ne m ρ c main_v35 (by decide)).trans ((show W6 m ρ c (Proc.devRef .tc main_v35) = W5 m ρ c (Proc.devRef .tc main_v35) from by host_skip hostOps3).trans ((W5_of_ne m ρ c main_v35 (by decide)).trans ((W4_of_ne m ρ c main_v35 (by decide)).trans ((show W3 m ρ c (Proc.devRef .tc main_v35) = W2 m ρ c (Proc.devRef .tc main_v35) from by host_skip hostOps1).trans (W2_of_ne m ρ c main_v35 (by decide))))))))

theorem c9_arg8 (c : Dev nD) : W9 m ρ c (Proc.devRef .tc main_arg8) = W1 m ρ c (Proc.devRef .tc main_arg8) :=
  ((show W9 m ρ c (Proc.devRef .tc main_arg8) = W8 m ρ c (Proc.devRef .tc main_arg8) from by host_skip hostOps5).trans ((W8_of_ne m ρ c main_arg8 (by decide)).trans ((W7_of_ne m ρ c main_arg8 (by decide)).trans ((show W6 m ρ c (Proc.devRef .tc main_arg8) = W5 m ρ c (Proc.devRef .tc main_arg8) from by host_skip hostOps3).trans ((W5_of_ne m ρ c main_arg8 (by decide)).trans ((W4_of_ne m ρ c main_arg8 (by decide)).trans ((show W3 m ρ c (Proc.devRef .tc main_arg8) = W2 m ρ c (Proc.devRef .tc main_arg8) from by host_skip hostOps1).trans (W2_of_ne m ρ c main_arg8 (by decide)))))))))

theorem c9_v49 (c : Dev nD) : W9 m ρ c (Proc.devRef .tc main_v49) = W1 m ρ c (Proc.devRef .tc main_v49) :=
  ((show W9 m ρ c (Proc.devRef .tc main_v49) = W8 m ρ c (Proc.devRef .tc main_v49) from by host_skip hostOps5).trans ((W8_of_ne m ρ c main_v49 (by decide)).trans (((W7_arr m ρ c 2).trans (((dat3 (V6 m ρ) c).arrAt_in 2 rfl _).trans (A_eq3 (V6 m ρ) c 2))).trans ((show W6 m ρ c (Proc.devRef .tc main_v49) = W5 m ρ c (Proc.devRef .tc main_v49) from by host_skip hostOps3).trans ((W5_of_ne m ρ c main_v49 (by decide)).trans (((W4_arr m ρ c 2).trans (((dat1 (V3 m ρ) c).arrAt_in 2 rfl _).trans (A_eq1 (V3 m ρ) c 2))).trans ((show W3 m ρ c (Proc.devRef .tc main_v49) = W2 m ρ c (Proc.devRef .tc main_v49) from by host_skip hostOps1).trans (W2_of_ne m ρ c main_v49 (by decide)))))))))

/-! ## The first region's entry contents -/

theorem w1_arg0 (c : Dev nD) : W1 m ρ c (Proc.devRef .tc main_arg0) = W0 m ρ c (Proc.devRef .tc main_arg0) := by host_skip hostOps0
theorem w1_arg3 (c : Dev nD) : W1 m ρ c (Proc.devRef .tc main_arg3) = W0 m ρ c (Proc.devRef .tc main_arg3) := by host_skip hostOps0
theorem w1_arg4 (c : Dev nD) : W1 m ρ c (Proc.devRef .tc main_arg4) = W0 m ρ c (Proc.devRef .tc main_arg4) := by host_skip hostOps0
theorem w1_arg5 (c : Dev nD) : W1 m ρ c (Proc.devRef .tc main_arg5) = W0 m ρ c (Proc.devRef .tc main_arg5) := by host_skip hostOps0
theorem w1_arg6 (c : Dev nD) : W1 m ρ c (Proc.devRef .tc main_arg6) = W0 m ρ c (Proc.devRef .tc main_arg6) := by host_skip hostOps0
theorem w1_arg7 (c : Dev nD) : W1 m ρ c (Proc.devRef .tc main_arg7) = W0 m ρ c (Proc.devRef .tc main_arg7) := by host_skip hostOps0
theorem w1_arg8 (c : Dev nD) : W1 m ρ c (Proc.devRef .tc main_arg8) = W0 m ρ c (Proc.devRef .tc main_arg8) := by host_skip hostOps0

theorem w1_v32 (c : Dev nD) : (W1 m ρ c (Proc.devRef .tc main_v32) : S700000.Idx → BitVec 32) = srcExt (W0 m ρ c (Proc.devRef .tc main_arg1)) :=
  host0_v32 (W0 m ρ c)
theorem w1_v33 (c : Dev nD) : (W1 m ρ c (Proc.devRef .tc main_v33) : S700000.Idx → BitVec 32) = dstExt (W0 m ρ c (Proc.devRef .tc main_arg1)) :=
  host0_v33 (W0 m ρ c)
theorem w1_v35 (c : Dev nD) : (W1 m ρ c (Proc.devRef .tc main_v35) : S700000.Idx → EReal) = normExt (W0 m ρ c (Proc.devRef .tc main_arg1)) :=
  host0_v35 (W0 m ρ c)
theorem w1_v49 (c : Dev nD) : (W1 m ρ c (Proc.devRef .tc main_v49) : S1x128.Idx → EReal)
    = Cert.ReferenceIdeal.Read.val_main_v17 (F := Ideal) (W0 m ρ c (Proc.devRef .tc main_arg2)) (W0 m ρ c (Proc.devRef .tc main_arg9))
        (W0 m ρ c (Proc.devRef .tc main_arg10)) (W0 m ρ c (Proc.devRef .tc main_arg11)) (W0 m ρ c (Proc.devRef .tc main_arg12)) :=
  host0_v49 (W0 m ρ c)

/-! ## The layers -/

section Layers
variable (c : Dev nD)

abbrev EI : S2x600000.Idx → BitVec 32 := W0 m ρ c (Proc.devRef .tc main_arg1)
abbrev GT : S1x128.Idx → EReal :=
  Cert.ReferenceIdeal.Read.val_main_v17 (F := Ideal) (W0 m ρ c (Proc.devRef .tc main_arg2)) (W0 m ρ c (Proc.devRef .tc main_arg9))
    (W0 m ρ c (Proc.devRef .tc main_arg10)) (W0 m ρ c (Proc.devRef .tc main_arg11)) (W0 m ρ c (Proc.devRef .tc main_arg12))
abbrev X0 : S100000x128.Idx → EReal := W0 m ρ c (Proc.devRef .tc main_arg0)
abbrev A3 : S128x128.Idx → EReal := W0 m ρ c (Proc.devRef .tc main_arg3)
abbrev A4 : S128.Idx → EReal := W0 m ρ c (Proc.devRef .tc main_arg4)
abbrev A5 : S128x128.Idx → EReal := W0 m ρ c (Proc.devRef .tc main_arg5)
abbrev A6 : S128.Idx → EReal := W0 m ρ c (Proc.devRef .tc main_arg6)
abbrev A7 : S128x128.Idx → EReal := W0 m ρ c (Proc.devRef .tc main_arg7)
abbrev A8 : S128.Idx → EReal := W0 m ρ c (Proc.devRef .tc main_arg8)

/-- The first product. -/
theorem h50 : (W2 m ρ c (Proc.devRef .tc main_v50) : S100000x128.Idx → EReal) = mm (X0 m ρ c) (A3 m ρ c) :=
  (W2_arr m ρ c 2).trans ((Region0.final (V1 m ρ) c).trans (mm_congr (w1_arg0 m ρ c) (w1_arg3 m ρ c)))

/-- The first aggregation. -/
theorem h63 : (W3 m ρ c (Proc.devRef .tc main_v63) : S100000x128.Idx → EReal) = agg (srcExt (EI m ρ c)) (dstExt (EI m ρ c)) (normExt (EI m ρ c)) (mm (X0 m ρ c) (A3 m ρ c)) :=
  (host1_v63 (W2 m ρ c)).trans (agg_congr ((c2_v32 m ρ c).trans (w1_v32 m ρ c)) ((c2_v33 m ρ c).trans (w1_v33 m ρ c))
    ((c2_v35 m ρ c).trans (w1_v35 m ρ c)) (h50 m ρ c))

/-- The first layer. -/
theorem h64 : (W4 m ρ c (Proc.devRef .tc main_v64) : S100000x128.Idx → EReal) = layerK (EI m ρ c) (GT m ρ c) (X0 m ρ c) (A3 m ρ c) (A4 m ρ c) :=
  (W4_arr m ρ c 3).trans ((Region1.final (V3 m ρ) c).trans (fin_congr (h63 m ρ c)
    ((c3_arg4 m ρ c).trans (w1_arg4 m ρ c)) ((c3_v49 m ρ c).trans (w1_v49 m ρ c))))

/-- The second product. -/
theorem h65 : (W5 m ρ c (Proc.devRef .tc main_v65) : S100000x128.Idx → EReal) = mm (layerK (EI m ρ c) (GT m ρ c) (X0 m ρ c) (A3 m ρ c) (A4 m ρ c)) (A5 m ρ c) :=
  (W5_arr m ρ c 2).trans ((Region2.final (V4 m ρ) c).trans (mm_congr (h64 m ρ c) ((c4_arg5 m ρ c).trans (w1_arg5 m ρ c))))

/-- The second aggregation. -/
theorem h78 : (W6 m ρ c (Proc.devRef .tc main_v78) : S100000x128.Idx → EReal)
    = agg (srcExt (EI m ρ c)) (dstExt (EI m ρ c)) (normExt (EI m ρ c)) (mm (layerK (EI m ρ c) (GT m ρ c) (X0 m ρ c) (A3 m ρ c) (A4 m ρ c)) (A5 m ρ c)) :=
  (host3_v78 (W5 m ρ c)).trans (agg_congr ((c5_v32 m ρ c).trans (w1_v32 m ρ c)) ((c5_v33 m ρ c).trans (w1_v33 m ρ c))
    ((c5_v35 m ρ c).trans (w1_v35 m ρ c)) (h65 m ρ c))

/-- The second layer. -/
theorem h79 : (W7 m ρ c (Proc.devRef .tc main_v79) : S100000x128.Idx → EReal) = layerK (EI m ρ c) (GT m ρ c) (layerK (EI m ρ c) (GT m ρ c) (X0 m ρ c) (A3 m ρ c) (A4 m ρ c)) (A5 m ρ c) (A6 m ρ c) :=
  (W7_arr m ρ c 3).trans ((Region3.final (V6 m ρ) c).trans (fin_congr (h78 m ρ c)
    ((c6_arg6 m ρ c).trans (w1_arg6 m ρ c)) ((c6_v49 m ρ c).trans (w1_v49 m ρ c))))

/-- The third product. -/
theorem h80 : (W8 m ρ c (Proc.devRef .tc main_v80) : S100000x128.Idx → EReal) = mm (layerK (EI m ρ c) (GT m ρ c) (layerK (EI m ρ c) (GT m ρ c) (X0 m ρ c) (A3 m ρ c) (A4 m ρ c)) (A5 m ρ c) (A6 m ρ c)) (A7 m ρ c) :=
  (W8_arr m ρ c 2).trans ((Region4.final (V7 m ρ) c).trans (mm_congr (h79 m ρ c) ((c7_arg7 m ρ c).trans (w1_arg7 m ρ c))))

/-- The third aggregation. -/
theorem h93 : (W9 m ρ c (Proc.devRef .tc main_v93) : S100000x128.Idx → EReal)
    = agg (srcExt (EI m ρ c)) (dstExt (EI m ρ c)) (normExt (EI m ρ c)) (mm (layerK (EI m ρ c) (GT m ρ c) (layerK (EI m ρ c) (GT m ρ c) (X0 m ρ c) (A3 m ρ c) (A4 m ρ c)) (A5 m ρ c) (A6 m ρ c)) (A7 m ρ c)) :=
  (host5_v93 (W8 m ρ c)).trans (agg_congr ((c8_v32 m ρ c).trans (w1_v32 m ρ c)) ((c8_v33 m ρ c).trans (w1_v33 m ρ c))
    ((c8_v35 m ρ c).trans (w1_v35 m ρ c)) (h80 m ρ c))

/-- THE RESULT: three layers of the argument arrays. -/
theorem h94 : (W10 m ρ c (Proc.devRef .tc main_v94) : S100000x128.Idx → EReal)
    = layerK (EI m ρ c) (GT m ρ c) (layerK (EI m ρ c) (GT m ρ c) (layerK (EI m ρ c) (GT m ρ c) (X0 m ρ c) (A3 m ρ c) (A4 m ρ c)) (A5 m ρ c) (A6 m ρ c)) (A7 m ρ c) (A8 m ρ c) :=
  (W10_arr m ρ c 3).trans ((Region5.final (V9 m ρ) c).trans (fin_congr (h93 m ρ c)
    ((c9_arg8 m ρ c).trans (w1_arg8 m ρ c)) ((c9_v49 m ρ c).trans (w1_v49 m ρ c))))

end Layers

end Cert.KernelIdeal.KernelValue

end
-- ==== Proof.LawLayouts.lean ====
/-
  Layouts read at an index, at the extents of this graph: a vector laid out as a column and along the lanes, and the
  two pieces of two vectors joined end to end (600000 edges, then 100000 nodes).
-/
import proofs.«117620_j43267500540702_1_alg».proof.Proof.Gen.KernelIdeal
import proofs.«117620_j43267500540702_1_alg».proof.Proof.LibConcatFold
import proofs.«117620_j43267500540702_1_alg».proof.KernelIdeal
import Idealize.ShloMosaic.Lib.Pipeline.Value
import Idealize.ShloMosaic.Lib.ValueIdx
import Idealize.ShloMosaic.PureOps.Ideal

set_option maxRecDepth 16384
set_option maxHeartbeats 1000000

noncomputable section

namespace Cert.LawLayouts

open Idealize.ShloMosaic Idealize.ShloMosaic.ValueIdx
open Cert.KernelIdeal Cert.KernelIdeal.Gen Cert.LibConcatFold
open scoped BigOperators

/-- A vector laid out as a column reads, at (e, 0), the vector at e. -/
theorem col_at {α : Type} {E : ℕ} (hE : E ≠ 1) (v : (⟨1, ![E]⟩ : Shape).Idx → α)
    (h : (⟨1, ![E]⟩ : Shape).BroadcastsInDim ⟨2, ![E, 1]⟩ (![0] : Fin 1 → Fin 2)) (e : Fin E) :
    broadcastInDim ⟨2, ![E, 1]⟩ ![0] h v (ix2 e (0 : Fin 1)) = v (ix1 e) :=
  broadcastInDim_apply _ h v (ix2 e (0 : Fin 1)) (ix1 e) fun a => by
    match a with
    | ⟨0, _⟩ => show e.val = if E = 1 then 0 else e.val; rw [if_neg hE]

/-- A vector laid out as a column and then along C lanes reads, at (e, q), the vector at e. -/
theorem rows_at {α : Type} {E C : ℕ} (hE : E ≠ 1) (v : (⟨1, ![E]⟩ : Shape).Idx → α)
    (h : (⟨1, ![E]⟩ : Shape).BroadcastsInDim ⟨2, ![E, 1]⟩ (![0] : Fin 1 → Fin 2))
    (h' : (⟨2, ![E, 1]⟩ : Shape).BroadcastsInDim ⟨2, ![E, C]⟩ (![0, 1] : Fin 2 → Fin 2)) (e : Fin E) (q : Fin C) :
    broadcastInDim ⟨2, ![E, C]⟩ ![0, 1] h' (broadcastInDim ⟨2, ![E, 1]⟩ ![0] h v) (ix2 e q) = v (ix1 e) :=
  (broadcastInDim_apply _ h' _ (ix2 e q) (ix2 e (0 : Fin 1)) fun a => by
    match a with
    | ⟨0, _⟩ => show e.val = if E = 1 then 0 else e.val; rw [if_neg hE]
    | ⟨1, _⟩ => show (0 : ℕ) = if (1 : ℕ) = 1 then 0 else q.val; rw [if_pos rfl]).trans (col_at hE v h e)

/-- The first piece of two vectors joined end to end. -/
theorem cat_left {α : Type} (a : S600000.Idx → α) (b : S100000.Idx → α) (e : Fin 600000) (he : e.val < 700000) :
    cat2 S700000 0 S600000 S100000 concatenates_S600000_S100000_S700000_d0 a b (ix1 (⟨e.val, he⟩ : Fin 700000))
      = a (ix1 e) :=
  by
  unfold cat2
  exact concatenate_pair_apply_left (t := S700000) (s₁ := S600000) (s₂ := S100000) (0 : Fin 1) a b
    concatenates_S600000_S100000_S700000_d0 (ix1 (⟨e.val, he⟩ : Fin 700000)) rfl (ix1 e) (fun c => by
      match c with
      | ⟨0, _⟩ => rfl)

/-- The second piece of two vectors joined end to end. -/
theorem cat_right {α : Type} (a : S600000.Idx → α) (b : S100000.Idx → α) (j : Fin 100000) (hj : 600000 + j.val < 700000) :
    cat2 S700000 0 S600000 S100000 concatenates_S600000_S100000_S700000_d0 a b (ix1 (⟨600000 + j.val, hj⟩ : Fin 700000))
      = b (ix1 j) :=
  by
  unfold cat2
  exact concatenate_pair_apply_right (t := S700000) (s₁ := S600000) (s₂ := S100000) (0 : Fin 1) a b
    concatenates_S600000_S100000_S700000_d0 (ix1 (⟨600000 + j.val, hj⟩ : Fin 700000)) rfl rfl (ix1 j)
    (fun c hc => absurd (by match c with | ⟨0, _⟩ => rfl) hc)
    (by show j.val + 600000 = 600000 + j.val; omega)

end Cert.LawLayouts

end
-- ==== Proof.LibRowTable.lean ====
/-
  Gathers and accumulating scatters along the ROW axis of an array, driven by an `[E, 1]` table of row numbers —
  what `x[rows]` and `segment_sum(·, rows)` lower to — read at an index, for a vector `[N]` and for a matrix `[N, C]`
  whose rows move whole. Any extents and any index width.

  * A gather reads, at entry `e`, the operand's row number `min (table e) (N - 1)`, the table word read as a signed
    integer and negative words clamped to row 0 (`Int.toNat`). For the matrix form the column is kept.
  * An update `e` of a scatter lands on row `n` exactly when the table word, read signed, IS `n`; a word that is
    negative or at least `N` lands nowhere. For the matrix form the column is kept.

  So the matrix forms are the vector forms applied column by column, with ONE source-row function and ONE
  landing test: this is what lets a contraction over the columns move across a gather and a scatter.
-/
import Idealize.ShloMosaic.Lib.ValueIdx
import Idealize.ShloMosaic.PureOps.Ideal

noncomputable section

namespace Cert.LibRowTable

open Idealize.ShloMosaic Idealize.ShloMosaic.ValueIdx

variable {α : Type}

/-! ## The landing test of any scatter, axis by axis -/

/-- An update lands on the operand index `i` exactly when, on every operand axis, start plus window coordinate is
    `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro heq a
      have h1 := congrFun (Option.some.inj heq) a
      have h2 := congrArg Fin.val h1
      have h3 := (h a).1
      simp only at h2
      omega
    · intro hall
      refine congrArg some (funext fun a => Fin.ext ?_)
      have := hall a
      simp only
      omega
  · rename_i h
    constructor
    · intro heq; exact absurd heq (by simp)
    · intro hall
      exact absurd (fun a => ⟨by rw [hall a]; exact Int.natCast_nonneg _, by rw [hall a]; exact_mod_cast (i a).isLt⟩) h

/-- An operand axis receives a window coordinate exactly when it is not an inserted axis. -/
theorem mem_scatter_sKept {s si u : Shape} (d : ScatterDims s si u) (a : Fin s.rank) : a ∈ d.sKept ↔ a ∉ d.insertedWindowDims := by
  simp [ScatterDims.sKept, Shape.kept, List.mem_filter, List.mem_finRange]

/-! ## The source row of a gather and the landing row of a scatter -/

/-- The row a gather reads for the table word `b`: the word read signed, negative words at 0, clamped to the last row. -/
def srcRow (N : Nat) (hN : 0 < N) {w : Nat} (b : BitVec w) : Fin N := ⟨min b.toInt.toNat (N - 1), by omega⟩

/-! ## A vector `[N]` gathered by an `[E, 1]` table -/

/-- The dimension numbers of `x[rows]` for a vector: the one operand axis collapsed, the table's last axis the index vector. -/
abbrev gatherVec (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector is the operand at the source row of table entry `(e, 0)`. -/
theorem gatherVec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVec N E wf) x idx (ix1 e) = x (ix1 (srcRow N hN (idx (ix2 e (0 : Fin 1))))) := by
  unfold Host.gather
  congr 1
  funext a
  obtain rfl : a = 0 := Subsingleton.elim _ _
  refine Fin.ext ?_
  show (gatherVec N E wf).start (ix1 e) idx 0 + (gatherVec N E wf).batchCoord (ix1 e) 0 + (gatherVec N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVec N E wf).startIndexMap from List.mem_singleton.mpr rfl)]
  have hsi : (gatherVec N E wf).siIdx (ix1 e) ⟨List.idxOf (0 : Fin 1) (gatherVec N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A matrix `[N, C]` whose rows are gathered by an `[E, 1]` table -/

/-- The dimension numbers of `x[rows]` for a matrix: the row axis collapsed, the column axis an offset axis of full width. -/
abbrev gatherRows (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, k)` of the gathered matrix is the operand at the source row of table entry `(e, 0)`, column `k`. -/
theorem gatherRows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRows N C E wf) x idx (ix2 e k) = x (ix2 (srcRow N hN (idx (ix2 e (0 : Fin 1)))) k) := by
  unfold Host.gather
  congr 1
  funext a
  refine Fin.ext ?_
  match a with
  | ⟨0, _⟩ =>
    show (gatherRows N C E wf).start (ix2 e k) idx 0 + (gatherRows N C E wf).batchCoord (ix2 e k) 0 + (gatherRows N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N C E wf).startIndexMap from List.mem_singleton.mpr rfl)]
    have hsi : (gatherRows N C E wf).siIdx (ix2 e k) ⟨List.idxOf (0 : Fin 2) (gatherRows N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRows N C E wf).start (ix2 e k) idx 1 + (gatherRows N C E wf).batchCoord (ix2 e k) 1 + (gatherRows N C E wf).offCoord (ix2 e k) 1 = k.val
    rw [GatherDims.batchCoord_eq_zero _ _ _ List.not_mem_nil]
    have hs : (gatherRows N C E wf).start (ix2 e k) idx 1 = 0 := by
      unfold GatherDims.start
      rw [dif_neg (show ¬ (1 : Fin 2) ∈ ([0] : List (Fin 2)) by decide)]
    have ho : (gatherRows N C E wf).offCoord (ix2 e k) 1 = k.val := by
      unfold GatherDims.offCoord
      rw [dif_pos ((GatherDims.mem_sKept _ _).mpr ⟨(by decide : ¬ (1 : Fin 2) ∈ ([0] : List (Fin 2))), List.not_mem_nil⟩)]
      rfl
    rw [hs, ho]
    omega

/-! ## Updates `[E]` scattered into a vector `[N]` by an `[E, 1]` table -/

/-- The dimension numbers of `segment_sum` into a vector: the one operand axis inserted, no window axis. -/
abbrev scatterVec (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on row `n` exactly when table entry `(e, 0)`, read signed, is `n`. -/
theorem scatterVec_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scatterVec N E wf).resultIdx? (ix1 e) idx = some (ix1 n) ↔ (idx (ix2 e (0 : Fin 1))).toInt = (n.val : Int) := by
  rw [resultIdx?_eq_some_iff]
  have hstart : (scatterVec N E wf).start (ix1 e) idx 0 = (idx (ix2 e (0 : Fin 1))).toInt := by
    unfold ScatterDims.start
    rw [dif_pos (show (0 : Fin 1) ∈ (scatterVec N E wf).scatterDimsToOperandDims from List.mem_singleton.mpr rfl)]
    have hsi : (scatterVec N E wf).siIdx (ix1 e) ⟨List.idxOf (0 : Fin 1) (scatterVec N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin : (scatterVec N E wf).window (ix1 e) 0 = 0 := by
    unfold ScatterDims.window
    rw [dif_neg (fun h => ((mem_scatter_sKept _ _).mp h) (List.mem_singleton.mpr rfl))]
  have hn : ((ix1 n : (⟨1, ![N]⟩ : Shape).Idx) 0).val = n.val := rfl
  constructor
  · intro h
    have := h 0
    rw [hstart, hwin, hn] at this
    omega
  · intro h a
    obtain rfl : a = 0 := Subsingleton.elim _ _
    rw [hstart, hwin, hn]
    omega

/-! ## Update rows `[E, C]` scattered into a matrix `[N, C]` by an `[E, 1]` table -/

/-- The dimension numbers of `segment_sum` into a matrix: the row axis inserted, the column axis a window axis. -/
abbrev scatterRows (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, k)` lands on `(n, k')` exactly when table entry `(e, 0)`, read signed, is `n`, and `k = k'`. -/
theorem scatterRows_lands {N C E w : Nat} (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (scatterRows N C E wf).resultIdx? (ix2 e k) idx = some (ix2 n k')
      ↔ (idx (ix2 e (0 : Fin 1))).toInt = (n.val : Int) ∧ k = k' := by
  rw [resultIdx?_eq_some_iff]
  have hstart0 : (scatterRows N C E wf).start (ix2 e k) idx 0 = (idx (ix2 e (0 : Fin 1))).toInt := by
    unfold ScatterDims.start
    rw [dif_pos (show (0 : Fin 2) ∈ (scatterRows N C E wf).scatterDimsToOperandDims from List.mem_singleton.mpr rfl)]
    have hsi : (scatterRows N C E wf).siIdx (ix2 e k) ⟨List.idxOf (0 : Fin 2) (scatterRows N C E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin0 : (scatterRows N C E wf).window (ix2 e k) 0 = 0 := by
    unfold ScatterDims.window
    rw [dif_neg (fun h => ((mem_scatter_sKept _ _).mp h) (List.mem_singleton.mpr rfl))]
  have hstart1 : (scatterRows N C E wf).start (ix2 e k) idx 1 = 0 := by
    unfold ScatterDims.start
    rw [dif_neg (show ¬ (1 : Fin 2) ∈ ([0] : List (Fin 2)) by decide)]
  have hwin1 : (scatterRows N C E wf).window (ix2 e k) 1 = k.val := by
    unfold ScatterDims.window
    rw [dif_pos ((mem_scatter_sKept _ _).mpr (by decide : ¬ (1 : Fin 2) ∈ ([0] : List (Fin 2))))]
    rfl
  have hn0 : ((ix2 n k' : (⟨2, ![N, C]⟩ : Shape).Idx) 0).val = n.val := rfl
  have hn1 : ((ix2 n k' : (⟨2, ![N, C]⟩ : Shape).Idx) 1).val = k'.val := rfl
  constructor
  · intro h
    have h0 := h 0
    have h1 := h 1
    rw [hstart0, hwin0, hn0] at h0
    rw [hstart1, hwin1, hn1] at h1
    exact ⟨by omega, Fin.ext (by omega)⟩
  · rintro ⟨h, rfl⟩ a
    match a with
    | ⟨0, _⟩ =>
      show (scatterRows N C E wf).start (ix2 e k) idx 0 + ((scatterRows N C E wf).window (ix2 e k) 0 : Int) = (((ix2 n k : (⟨2, ![N, C]⟩ : Shape).Idx) 0).val : Int)
      rw [hstart0, hwin0, hn0]
      omega
    | ⟨1, _⟩ =>
      show (scatterRows N C E wf).start (ix2 e k) idx 1 + ((scatterRows N C E wf).window (ix2 e k) 1 : Int) = (((ix2 n k : (⟨2, ![N, C]⟩ : Shape).Idx) 1).val : Int)
      rw [hstart1, hwin1, hn1]
      omega

end Cert.LibRowTable

end
-- ==== Proof.LibLanding.lean ====
/-
  The set of updates of an accumulating scatter that land on a given operand entry, named once.

  The exact scatter on the extended reals is "the operand's entry plus the sum of the updates whose result index is
  that entry". The set is stated here for ANY shapes and dimension record, so that it is spelt exactly as in the
  operation's definition; statements about a particular scatter then speak of landing d idx i and of membership in
  it, and never spell the set again at their own shapes.
-/
import Idealize.ShloMosaic.PureOps.Ideal

noncomputable section

namespace Cert.LibLanding

open Idealize.ShloMosaic
open scoped BigOperators

/-- The updates that land on the operand entry i. -/
def landing {s si su : Shape} (d : ScatterDims s si su) {w : Nat} (idx : IVec si w) (i : s.Idx) : Finset su.Idx :=
  Finset.univ.filter (fun j => d.resultIdx? j idx = some i)

/-- An update is in the set exactly when its result index is the entry. -/
theorem mem_landing {s si su : Shape} (d : ScatterDims s si su) {w : Nat} (idx : IVec si w) (i : s.Idx) (j : su.Idx) :
    j ∈ landing d idx i ↔ d.resultIdx? j idx = some i := by
  unfold landing
  rw [Finset.mem_filter]
  exact ⟨fun h => h.2, fun h => ⟨Finset.mem_univ _, h⟩⟩

/-- The exact accumulating scatter at an entry: the operand's entry plus the sum of the updates landing there. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j ∈ landing d idx i, upd j := rfl

/-- The same for the host operation at the exact instance. -/
theorem scatterAdd_apply {s si su : Shape} {φ : FTy} (d : ScatterDims s si su) {w : Nat} (x : FVec Ideal s φ) (idx : IVec si w)
    (upd : FVec Ideal su φ) (i : s.Idx) :
    Host.scatterAdd (F := Ideal) d x idx upd i = x i + ∑ j ∈ landing d idx i, upd j := rfl

end Cert.LibLanding

end
-- ==== Proof.LibSegmentSum.lean ====
/-
  A segment sum read at an entry as a sum over the edges, and the algebra that moves a projection across a mean
  aggregation. Nothing here mentions a program; any extents.

  * An accumulating scatter of update rows [E, C] into a matrix [N, C] by an [E, 1] table of row numbers is, at
    entry (n, q), the operand's entry plus the sum over the edges e of the update (e, q) when the table word of e,
    read signed, is n, and of 0 otherwise: an update (e, k) lands on (n, q) exactly when the word is n and k = q, so
    of the double sum over (e, k) only the column k = q is left. The same for updates [E] into a vector [N].
  * For real numbers h e k, w k, d (as extended reals) and a test P on the edges,
      sum_k ((sum_{e : P e} h e k) * d) * w k = (sum_{e : P e} sum_k h e k * w k) * d :
    both sides are the coercion of one real number, and the real identity is an exchange of two finite sums and
    commutativity. It is stated with an added z = 0 in front of each aggregate (the entry the aggregate starts
    from), and also for extended reals that are only known to be real.
  * The two together, in the spelling of the operations: with P = H * Wp (a contraction over the columns of H),
    "gather the rows of P by a table, sum them into segments by another table, scale by d" is, entry by entry, the
    projection by Wp of "gather the rows of H, sum them into segments, scale by d", when H, Wp and d are real.
-/
import Idealize.ShloMosaic.PureOps.Ideal
import Idealize.ShloMosaic.Lib.ValueIdx
import proofs.«117620_j43267500540702_1_alg».proof.Proof.LibRowTable
import proofs.«117620_j43267500540702_1_alg».proof.Proof.LibLanding

noncomputable section

namespace Cert.LibSegmentSum

open Idealize.ShloMosaic Idealize.ShloMosaic.ValueIdx
open Cert.LibRowTable Cert.LibLanding
open scoped BigOperators

/-! ## A segment sum at an entry -/

/-- A rank-1 index set is its coordinate range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update rows [E, C] scattered with accumulation into a matrix [N, C]: entry (n, q) is the operand's entry plus
    the sum over the edges whose table word, read signed, is n, of the update's column q. -/
theorem scatterRows_sum {N C E w : Nat} (wf : ScatterDims.WF ⟨2, ![N, C]⟩ ⟨2, ![E, 1]⟩ ⟨2, ![E, C]⟩ [1] [0] [0] 1)
    {φ : FTy} (x : FVec Ideal ⟨2, ![N, C]⟩ φ) (idx : IVec ⟨2, ![E, 1]⟩ w) (u : FVec Ideal ⟨2, ![E, C]⟩ φ)
    (n : Fin N) (q : Fin C) :
    Host.scatterAdd (F := Ideal) (scatterRows N C E wf) x idx u (ix2 n q)
      = x (ix2 n q) + ∑ e : Fin E, if (idx (ix2 e (0 : Fin 1))).toInt = (n.val : Int) then u (ix2 e q) else 0 := by
  rw [scatterAdd_apply]
  congr 1
  unfold landing
  rw [Finset.sum_filter, sum_idx2]
  refine Finset.sum_congr rfl fun e _ => ?_
  simp only [scatterRows_lands]
  by_cases h : (idx (ix2 e (0 : Fin 1))).toInt = (n.val : Int)
  · simp only [h, true_and, if_true]
    rw [Finset.sum_ite_eq' Finset.univ q (fun k => u (ix2 e k))]
    simp
  · simp [h]

/-- Updates [E] scattered with accumulation into a vector [N]: entry n is the operand's entry plus the sum of the
    updates of the edges whose table word, read signed, is n. -/
theorem scatterVec_sum {N E w : Nat} (wf : ScatterDims.WF ⟨1, ![N]⟩ ⟨2, ![E, 1]⟩ ⟨1, ![E]⟩ [] [0] [0] 1)
    {φ : FTy} (x : FVec Ideal ⟨1, ![N]⟩ φ) (idx : IVec ⟨2, ![E, 1]⟩ w) (u : FVec Ideal ⟨1, ![E]⟩ φ) (n : Fin N) :
    Host.scatterAdd (F := Ideal) (scatterVec N E wf) x idx u (ix1 n)
      = x (ix1 n) + ∑ e : Fin E, if (idx (ix2 e (0 : Fin 1))).toInt = (n.val : Int) then u (ix1 e) else 0 := by
  rw [scatterAdd_apply]
  congr 1
  unfold landing
  rw [Finset.sum_filter, sum_idx1]
  refine Finset.sum_congr rfl fun e _ => ?_
  simp only [scatterVec_lands]

/-! ## A projection moved across a mean aggregation -/

/-- A finite sum of real numbers, coerced, is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A choice between a coerced real and 0 is the coercion of the choice. -/
theorem ite_coe (p : Prop) [Decidable p] (a : ℝ) : (if p then (a : EReal) else 0) = ((if p then a else 0 : ℝ) : EReal) := by
  split_ifs <;> simp

/-- The real identity: the weighted sum over k of the scaled aggregate is the scaled aggregate of the weighted sums. -/
theorem project_mean_real {E K : Type*} [Fintype E] [Fintype K] (P : E → Prop) [DecidablePred P] (h : E → K → ℝ)
    (w : K → ℝ) (d : ℝ) :
    ∑ k : K, ((∑ e : E, if P e then h e k else 0) * d) * w k
      = (∑ e : E, if P e then (∑ k : K, h e k * w k) else 0) * d := by
  simp only [Finset.sum_mul]
  rw [Finset.sum_comm]
  refine Finset.sum_congr rfl fun e _ => ?_
  by_cases hp : P e
  · simp only [hp, if_true, Finset.sum_mul]
    exact Finset.sum_congr rfl fun k _ => by ring
  · simp [hp]

/-- The same on real numbers inside the extended reals, each aggregate started from an entry z that is 0. -/
theorem project_mean {E K : Type*} [Fintype E] [Fintype K] (P : E → Prop) [DecidablePred P] (h : E → K → ℝ)
    (w : K → ℝ) (d : ℝ) (z : EReal) (hz : z = 0) :
    ∑ k : K, ((z + ∑ e : E, if P e then ((h e k : ℝ) : EReal) else 0) * (d : EReal)) * ((w k : ℝ) : EReal)
      = (z + ∑ e : E, if P e then (∑ k : K, ((h e k : ℝ) : EReal) * ((w k : ℝ) : EReal)) else 0) * (d : EReal) := by
  subst hz
  simp only [zero_add, ← EReal.coe_mul, ← coe_sum, ite_coe]
  rw [project_mean_real P h w d]

/-- The same for extended reals that are only known to be real. -/
theorem project_mean' {E K : Type*} [Fintype E] [Fintype K] (P : E → Prop) [DecidablePred P] (H : E → K → EReal)
    (W : K → EReal) (D : EReal) (z : EReal) (hH : ∀ e k, ∃ r : ℝ, H e k = (r : EReal)) (hW : ∀ k, ∃ r : ℝ, W k = (r : EReal))
    (hD : ∃ r : ℝ, D = (r : EReal)) (hz : z = 0) :
    ∑ k : K, ((z + ∑ e : E, if P e then H e k else 0) * D) * W k
      = (z + ∑ e : E, if P e then (∑ k : K, H e k * W k) else 0) * D := by
  choose h hh using hH
  choose w hw using hW
  obtain ⟨d, rfl⟩ := hD
  obtain rfl : H = fun e k => ((h e k : ℝ) : EReal) := funext fun e => funext fun k => hh e k
  obtain rfl : W = fun k => ((w k : ℝ) : EReal) := funext hw
  exact project_mean P h w d z hz

/-! ## The law in its operational spelling -/

/-- Gather the rows of a projected matrix P = H * Wp by one table, sum them into segments by another, and scale by d:
    entry (n, q) is the projection by Wp of "gather the rows of H, sum them into segments, scale by d" at row n.
    The entries of H and Wp and the scale d are real; both segment sums start from arrays of zeros. -/
theorem mean_project {N E K C w : Nat} (hN : 0 < N)
    (wfgK : GatherDims.WF ⟨2, ![N, K]⟩ ⟨2, ![E, 1]⟩ ⟨2, ![E, K]⟩ [1] [0] [] [0] [] 1 ![1, K])
    (wfgC : GatherDims.WF ⟨2, ![N, C]⟩ ⟨2, ![E, 1]⟩ ⟨2, ![E, C]⟩ [1] [0] [] [0] [] 1 ![1, C])
    (wfsK : ScatterDims.WF ⟨2, ![N, K]⟩ ⟨2, ![E, 1]⟩ ⟨2, ![E, K]⟩ [1] [0] [0] 1)
    (wfsC : ScatterDims.WF ⟨2, ![N, C]⟩ ⟨2, ![E, 1]⟩ ⟨2, ![E, C]⟩ [1] [0] [0] 1)
    {φ : FTy} (H : FVec Ideal ⟨2, ![N, K]⟩ φ) (P : FVec Ideal ⟨2, ![N, C]⟩ φ) (Wp : (⟨2, ![K, C]⟩ : Shape).Idx → EReal)
    (hP : ∀ (n : Fin N) (q : Fin C), P (ix2 n q) = ∑ k : Fin K, H (ix2 n k) * Wp (ix2 k q))
    (ZK : FVec Ideal ⟨2, ![N, K]⟩ φ) (ZC : FVec Ideal ⟨2, ![N, C]⟩ φ) (hZK : ∀ i, ZK i = 0) (hZC : ∀ i, ZC i = 0)
    (tS tD : IVec ⟨2, ![E, 1]⟩ w) (d : EReal)
    (hH : ∀ i, ∃ r : ℝ, H i = (r : EReal)) (hW : ∀ i, ∃ r : ℝ, Wp i = (r : EReal)) (hd : ∃ r : ℝ, d = (r : EReal))
    (n : Fin N) (q : Fin C) :
    Host.scatterAdd (F := Ideal) (scatterRows N C E wfsC) ZC tD (Host.gather (gatherRows N C E wfgC) P tS) (ix2 n q) * d
      = ∑ k : Fin K, (Host.scatterAdd (F := Ideal) (scatterRows N K E wfsK) ZK tD
          (Host.gather (gatherRows N K E wfgK) H tS) (ix2 n k) * d) * Wp (ix2 k q) := by
  simp only [scatterRows_sum, gatherRows_apply hN, hP, hZK, hZC]
  exact (project_mean' (fun e : Fin E => (tD (ix2 e (0 : Fin 1))).toInt = (n.val : Int))
    (fun e k => H (ix2 (srcRow N hN (tS (ix2 e (0 : Fin 1)))) k)) (fun k => Wp (ix2 k q)) d 0
    (fun e k => hH _) (fun k => hW _) hd rfl).symm

end Cert.LibSegmentSum

end
-- ==== Proof.KernelAgg.lean ====
/-
  The kernel's aggregation read at an entry: zero plus the sum, over the 700000 entries of the extended edge list, of
  the rows whose target word read signed is the node — row e being the product's row named by the normalised source
  word of e, scaled by the weight of e.
-/
import proofs.«117620_j43267500540702_1_alg».proof.Proof.HostStages
import proofs.«117620_j43267500540702_1_alg».proof.Proof.LawLayouts
import proofs.«117620_j43267500540702_1_alg».proof.Proof.LibRowTable
import proofs.«117620_j43267500540702_1_alg».proof.Proof.LibSegmentSum
import Idealize.ShloMosaic.Lib.Pipeline.Value
import Idealize.ShloMosaic.Lib.ValueIdx
import Idealize.ShloMosaic.PureOps.Ideal

set_option maxRecDepth 16384
set_option maxHeartbeats 1000000

noncomputable section

namespace Cert.KernelAgg

open Idealize.ShloMosaic Idealize.ShloMosaic.ValueIdx
open Cert.KernelIdeal Cert.KernelIdeal.Gen Cert.KernelIdeal.HostStages Cert.LawLayouts
open Cert.LibRowTable Cert.LibSegmentSum
open scoped BigOperators

/-- The index normalisation "if the word is negative add the extent 100000", on one word. -/
def nrm (b : BitVec 32) : BitVec 32 :=
  Scalar.select (IntOp.cmpi .slt b 0#32) (IntOp.addi b 100000#32) b

/-- The gathered and scaled row of entry e of the extended list, at lane q. -/
theorem update_at (s32 : S700000.Idx → BitVec 32) (n35 : S700000.Idx → EReal) (h : S100000x128.Idx → EReal)
    (e : Fin 700000) (q : Fin 128) :
    mulf (F := Ideal) (φ := .f32)
      (Host.gather gather_S100000x128_S700000x1_S700000x128_1_0_n_n_0_1_1128 h
        (broadcastInDim S700000x1 ![0] bcast_S700000_S700000x1_0
          (select (cmpi .slt s32 (broadcastInDim S700000 ![] bcast_S_S700000 (constantI S_ 32 0#32)))
            (addi s32 (broadcastInDim S700000 ![] bcast_S_S700000 (constantI S_ 32 100000#32))) s32)))
      (broadcastInDim S700000x128 ![0, 1] bcast_S700000x1_S700000x128_0_1
        (broadcastInDim S700000x1 ![0] bcast_S700000_S700000x1_0 n35)) (ix2 e q)
      = h (ix2 (srcRow 100000 (by decide) (nrm (s32 (ix1 e)))) q) * n35 (ix1 e) := by
  show Host.gather (gatherRows 100000 128 700000 Cert.KernelIdeal.Facts₀.gather_S100000x128_S700000x1_S700000x128_1_0_n_n_0_1_1128_wf) h _ (ix2 e q)
      * broadcastInDim S700000x128 ![0, 1] bcast_S700000x1_S700000x128_0_1 (broadcastInDim S700000x1 ![0] bcast_S700000_S700000x1_0 n35) (ix2 e q) = _
  rw [gatherRows_apply (N := 100000) (by decide), rows_at (E := 700000) (by decide) n35 bcast_S700000_S700000x1_0 bcast_S700000x1_S700000x128_0_1 e q,
    col_at (E := 700000) (by decide) _ bcast_S700000_S700000x1_0 e]
  rfl

/-- The aggregation at (n, q). -/
theorem agg_at (s32 s33 : S700000.Idx → BitVec 32) (n35 : S700000.Idx → EReal) (h : S100000x128.Idx → EReal)
    (n : Fin 100000) (q : Fin 128) :
    agg s32 s33 n35 h (ix2 n q) = Ideal.ofBits .f32 0x00000000#32 + ∑ e : Fin 700000,
      if (s33 (ix1 e)).toInt = (n.val : Int)
        then h (ix2 (srcRow 100000 (by decide) (nrm (s32 (ix1 e)))) q) * n35 (ix1 e) else 0 := by
  unfold agg
  refine (scatterRows_sum (N := 100000) (C := 128) (E := 700000) Cert.KernelIdeal.Facts₀.scatter_S100000x128_S700000x1_S700000x128_1_0_0_1_wf
    _ _ _ n q).trans ?_
  refine congrArg (Ideal.ofBits .f32 0x00000000#32 + ·) (Finset.sum_congr rfl fun e _ => ?_)
  rw [col_at (E := 700000) (by decide) s33 bcast_S700000_S700000x1_0 e, update_at]

end Cert.KernelAgg

end
-- ==== Proof.RefAgg.lean ====
/-
  The reference's aggregation over the 600000 edges, read at (n, q): zero plus the sum of the rows h[src e] * norm e
  of the edges whose target word read signed is n — for any argument arrays.
-/
import proofs.«117620_j43267500540702_1_alg».proof.Proof.Gen.ReferenceIdeal.Read
import proofs.«117620_j43267500540702_1_alg».proof.Proof.LawLayouts
import proofs.«117620_j43267500540702_1_alg».proof.Proof.LibRowTable
import proofs.«117620_j43267500540702_1_alg».proof.Proof.LibSegmentSum
import Idealize.ShloMosaic.Lib.Pipeline.Value
import Idealize.ShloMosaic.Lib.ValueIdx
import Idealize.ShloMosaic.PureOps.Ideal

set_option maxRecDepth 16384
set_option maxHeartbeats 1000000

noncomputable section

namespace Cert.RefAgg

open Idealize.ShloMosaic Idealize.ShloMosaic.ValueIdx
open Cert.ReferenceIdeal Cert.ReferenceIdeal.Gen Cert.ReferenceIdeal.Read Cert.LawLayouts
open Cert.LibRowTable Cert.LibSegmentSum
open scoped BigOperators

variable (ei : S2x600000.Idx → BitVec 32)

/-- The scaled gathered row of edge e, at lane q. -/
theorem v55_at (x : S100000x128.Idx → EReal) (w : S128x128.Idx → EReal) (e : Fin 600000) (q : Fin 128) :
    val_main_v55 (F := Ideal) x ei w (ix2 e q)
      = val_main_v18 (F := Ideal) x w (ix2 (srcRow 100000 (by decide) (val_main_v50 (F := Ideal) ei (ix1 e))) q)
          * val_main_v45 (F := Ideal) ei (ix1 e) := by
  rw [val_main_v55_apply, Ideal.mulf_def]
  unfold val_main_v54 val_main_v53 val_main_v52 val_main_v51
  show Host.gather (gatherRows 100000 128 600000 Cert.ReferenceIdeal.Facts₀.gather_S100000x128_S600000x1_S600000x128_1_0_n_n_0_1_1128_wf) _ _ (ix2 e q)
      * broadcastInDim S600000x128 ![0, 1] bcast_S600000x1_S600000x128_0_1
          (broadcastInDim S600000x1 ![0] bcast_S600000_S600000x1_0 (val_main_v45 (F := Ideal) ei)) (ix2 e q) = _
  rw [gatherRows_apply (N := 100000) (by decide), rows_at (E := 600000) (by decide) (val_main_v45 (F := Ideal) ei) bcast_S600000_S600000x1_0
      bcast_S600000x1_S600000x128_0_1 e q,
    col_at (E := 600000) (by decide) (val_main_v50 (F := Ideal) ei) bcast_S600000_S600000x1_0 e]

/-- The aggregation over the edges at (n, q). -/
theorem v58_at (x : S100000x128.Idx → EReal) (w : S128x128.Idx → EReal) (n : Fin 100000) (q : Fin 128) :
    val_main_v58 (F := Ideal) x ei w (ix2 n q) = Ideal.ofBits .f32 0x00000000#32 + ∑ e : Fin 600000,
      if (val_main_v3 (F := Ideal) ei (ix1 e)).toInt = (n.val : Int)
        then val_main_v18 (F := Ideal) x w (ix2 (srcRow 100000 (by decide) (val_main_v50 (F := Ideal) ei (ix1 e))) q)
          * val_main_v45 (F := Ideal) ei (ix1 e) else 0 := by
  unfold val_main_v58
  refine (scatterRows_sum (N := 100000) (C := 128) (E := 600000) Cert.ReferenceIdeal.Facts₀.scatter_S100000x128_S600000x1_S600000x128_1_0_0_1_wf
    _ _ _ n q).trans ?_
  rw [val_main_v56_apply, val_main_cst_11_apply, Ideal.ofBits_def]
  refine congrArg (Ideal.ofBits .f32 0x00000000#32 + ·) (Finset.sum_congr rfl fun e _ => ?_)
  unfold val_main_v57
  rw [col_at (E := 600000) (by decide) (val_main_v3 (F := Ideal) ei) bcast_S600000_S600000x1_0 e, v55_at]

end Cert.RefAgg

end
-- ==== Proof.LibMoments.lean ====
/-
  GENERAL lemmas on the extended reals with the exact ("ideal") float operations: entries that are real
  numbers, the quotient by a nonzero real, a few float literals, and the two formulas for a variance.

  On the extended reals a difference of infinities is a junk value, so E[x²] − E[x]² and E[(x − E[x])²] agree
  only where the entries are real numbers. The predicate IsR x says "x is (the image of) a real number"; it is
  closed under the ring operations, finite sums, max, if-then-else and the quotient by a nonzero real, and on
  such entries every identity below is the identity of real numbers transported along the inclusion ℝ → EReal.
-/
import Mathlib.Data.EReal.Inv
import Mathlib.Analysis.SpecialFunctions.Pow.Real
import Mathlib.Algebra.BigOperators.Group.Finset.Basic
import Mathlib.Algebra.BigOperators.Fin
import Mathlib.Tactic.Ring
import Mathlib.Tactic.Linarith
import Mathlib.Tactic.FieldSimp
import Mathlib.Tactic.Positivity
import Idealize.ShloMosaic.PureOps.Ideal

noncomputable section

namespace Cert.LibMoments

open Idealize.ShloMosaic
open scoped BigOperators

/-! ## Entries that are real numbers -/

/-- The extended real x is a real number. -/
def IsR (x : EReal) : Prop := ∃ r : ℝ, x = (r : EReal)

theorem IsR.coe (r : ℝ) : IsR (r : EReal) := ⟨r, rfl⟩

theorem IsR_zero : IsR 0 := ⟨0, EReal.coe_zero.symm⟩

theorem IsR_one : IsR 1 := ⟨1, EReal.coe_one.symm⟩

theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The inclusion of the reals commutes with finite sums. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real entries is a real entry. -/
theorem IsR.finset_sum {ι : Type*} (s : Finset ι) (f : ι → EReal) (h : ∀ i ∈ s, IsR (f i)) :
    IsR (∑ i ∈ s, f i) := by
  classical
  induction s using Finset.induction_on with
  | empty => simpa using IsR_zero
  | insert a s ha ih =>
    rw [Finset.sum_insert ha]
    exact (h a (Finset.mem_insert_self a s)).add (ih fun i hi => h i (Finset.mem_insert_of_mem hi))

theorem IsR.sum {ι : Type*} [Fintype ι] (f : ι → EReal) (h : ∀ i, IsR (f i)) : IsR (∑ i, f i) :=
  IsR.finset_sum Finset.univ f fun i _ => h i

theorem IsR.max {x y : EReal} (hx : IsR x) (hy : IsR y) : IsR (max x y) := by
  rcases le_total x y with h | h
  · rw [max_eq_right h]; exact hy
  · rw [max_eq_left h]; exact hx

theorem IsR.min {x y : EReal} (hx : IsR x) (hy : IsR y) : IsR (min x y) := by
  rcases le_total x y with h | h
  · rw [min_eq_left h]; exact hx
  · rw [min_eq_right h]; exact hy

theorem IsR.ite {p : Prop} [Decidable p] {x y : EReal} (hx : IsR x) (hy : IsR y) :
    IsR (if p then x else y) := by
  split
  · exact hx
  · exact hy

/-- The quotient of a real by a nonzero real, read as extended reals, is the real quotient. -/
theorem div_coe_coe (a b : ℝ) (hb : b ≠ 0) : Ideal.div (a : EReal) (b : EReal) = ((a / b : ℝ) : EReal) := by
  rw [Ideal.div_coe hb, ← EReal.coe_mul, mul_one_div]

theorem IsR.div_real {x : EReal} (hx : IsR x) (c : EReal) (hc : IsR c) (hc0 : c ≠ 0) : IsR (Ideal.div x c) := by
  obtain ⟨a, rfl⟩ := hx; obtain ⟨b, rfl⟩ := hc
  have hb : b ≠ 0 := fun h => hc0 (by rw [h, EReal.coe_zero])
  exact ⟨a / b, div_coe_coe a b hb⟩

/-! ## The quotient as a product with the reciprocal; max x 1 -/

/-- x * (1 / c) = x / c for every nonzero divisor, the infinities included. -/
theorem mul_one_div (x c : EReal) (hc : c ≠ 0) : x * Ideal.div 1 c = Ideal.div x c := by
  rw [Ideal.div, Ideal.div, if_neg hc, if_neg hc, one_mul]

theorem max_one_ne_zero (x : EReal) : max x 1 ≠ 0 :=
  ne_of_gt (lt_of_lt_of_le zero_lt_one (le_max_right x 1))

theorem isR_max_one {x : EReal} (hx : IsR x) : IsR (max x 1) := hx.max IsR_one

/-! ## Float literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## The two formulas for a variance

  For real numbers x₁ … xₙ with mean m = (∑ x) / n:  (∑ (x − m)²) / n = (∑ x²) / n − m².
  Expand the square: ∑ (x − m)² = ∑ x² − 2 m ∑ x + n m², and ∑ x = n m. -/

/-- The identity on the reals, with the sum of the entries named S. -/
theorem real_variance (n : ℕ) (P : Fin n → ℝ) (N S : ℝ) (hn : (n : ℝ) = N) (hN : N ≠ 0) (hS : ∑ q, P q = S) :
    (∑ p, (P p - S / N) * (P p - S / N)) / N = (∑ p, P p * P p) / N - S / N * (S / N) := by
  have h1 : ∀ p, (P p - S / N) * (P p - S / N) = P p * P p - 2 * (S / N) * P p + S / N * (S / N) :=
    fun p => by ring
  simp only [h1]
  rw [Finset.sum_add_distrib, Finset.sum_sub_distrib, ← Finset.mul_sum, hS, Finset.sum_const, Finset.card_univ,
    Fintype.card_fin, nsmul_eq_mul, hn]
  field_simp
  ring

/-- The identity on the extended reals, for entries that are images of reals: the mean of the squared deviations
    from the mean is the mean of the squares minus the square of the mean. -/
theorem variance_coe (n : ℕ) (P : Fin n → ℝ) (N : ℝ) (hn : (n : ℝ) = N) (hN : N ≠ 0) :
    Ideal.div (∑ p, (((P p : ℝ) : EReal) - Ideal.div (∑ q, ((P q : ℝ) : EReal)) (N : EReal))
        * (((P p : ℝ) : EReal) - Ideal.div (∑ q, ((P q : ℝ) : EReal)) (N : EReal))) (N : EReal)
      = Ideal.div (∑ p, ((P p : ℝ) : EReal) * ((P p : ℝ) : EReal)) (N : EReal)
        - Ideal.div (∑ q, ((P q : ℝ) : EReal)) (N : EReal) * Ideal.div (∑ q, ((P q : ℝ) : EReal)) (N : EReal) := by
  have hμ : Ideal.div (∑ q, ((P q : ℝ) : EReal)) (N : EReal) = (((∑ q, P q) / N : ℝ) : EReal) := by
    rw [coe_finset_sum, div_coe_coe _ _ hN]
  rw [hμ]
  have hL : ∀ p, (((P p : ℝ) : EReal) - (((∑ q, P q) / N : ℝ) : EReal)) * (((P p : ℝ) : EReal) - (((∑ q, P q) / N : ℝ) : EReal))
      = (((P p - (∑ q, P q) / N) * (P p - (∑ q, P q) / N) : ℝ) : EReal) := fun p => by
    rw [← EReal.coe_sub, ← EReal.coe_mul]
  have hR : ∀ p, ((P p : ℝ) : EReal) * ((P p : ℝ) : EReal) = ((P p * P p : ℝ) : EReal) := fun p =>
    (EReal.coe_mul _ _).symm
  simp only [hL, hR]
  rw [coe_finset_sum, coe_finset_sum, div_coe_coe _ _ hN, div_coe_coe _ _ hN, ← EReal.coe_mul, ← EReal.coe_sub]
  exact congrArg _ (real_variance n P N _ hn hN rfl)

/-- The same for any family of extended reals every entry of which is a real number. -/
theorem variance_isR (n : ℕ) (X : Fin n → EReal) (hX : ∀ p, IsR (X p)) (N : ℝ) (hn : (n : ℝ) = N) (hN : N ≠ 0) :
    Ideal.div (∑ p, (X p - Ideal.div (∑ q, X q) (N : EReal)) * (X p - Ideal.div (∑ q, X q) (N : EReal))) (N : EReal)
      = Ideal.div (∑ p, X p * X p) (N : EReal)
        - Ideal.div (∑ q, X q) (N : EReal) * Ideal.div (∑ q, X q) (N : EReal) := by
  choose P hP using hX
  obtain rfl : X = fun p => ((P p : ℝ) : EReal) := funext hP
  exact variance_coe n P N hn hN

/-- The same with the divisor any extended real known to be the real N (a float literal, say). -/
theorem variance_isR_of_eq (n : ℕ) (X : Fin n → EReal) (hX : ∀ p, IsR (X p)) (c : EReal) (N : ℝ) (hc : c = (N : EReal))
    (hn : (n : ℝ) = N) (hN : N ≠ 0) :
    Ideal.div (∑ p, (X p - Ideal.div (∑ q, X q) c) * (X p - Ideal.div (∑ q, X q) c)) c
      = Ideal.div (∑ p, X p * X p) c - Ideal.div (∑ q, X q) c * Ideal.div (∑ q, X q) c := by
  subst hc; exact variance_isR n X hX N hn hN

/-! ## The reciprocal square root of a variance plus a positive real -/

/-- At a positive real the reciprocal square root is the real (√r)⁻¹. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- A mean of squares of reals over a positive N, plus a positive e, is a positive real; its reciprocal square
    root is a real. -/
theorem rsqrt_sq_mean_real (n : ℕ) (Y : Fin n → EReal) (hY : ∀ p, IsR (Y p)) (N : ℝ) (hN : 0 < N) (e : ℝ) (he : 0 < e) :
    IsR (Ideal.rsqrt (Ideal.div (∑ p, Y p * Y p) (N : EReal) + (e : EReal))) := by
  choose Q hQ using hY
  have hsum : ∑ p, Y p * Y p = ((∑ p, Q p * Q p : ℝ) : EReal) := by
    rw [← coe_finset_sum]
    exact Finset.sum_congr rfl fun p _ => by rw [hQ p, ← EReal.coe_mul]
  have hpos : 0 < (∑ p, Q p * Q p) / N + e :=
    add_pos_of_nonneg_of_pos (div_nonneg (Finset.sum_nonneg fun p _ => mul_self_nonneg _) hN.le) he
  rw [hsum, div_coe_coe _ _ hN.ne', ← EReal.coe_add, rsqrt_pos _ hpos]
  exact ⟨_, rfl⟩

/-- The reciprocal square root of (the mean squared deviation from the mean, plus a positive real) is a real. -/
theorem rsqrt_real (n : ℕ) (X : Fin n → EReal) (hX : ∀ p, IsR (X p)) (N : ℝ) (hN : 0 < N) (e : ℝ) (he : 0 < e) :
    IsR (Ideal.rsqrt (Ideal.div (∑ p, (X p - Ideal.div (∑ q, X q) (N : EReal)) * (X p - Ideal.div (∑ q, X q) (N : EReal)))
      (N : EReal) + (e : EReal))) :=
  rsqrt_sq_mean_real n _ (fun p => (hX p).sub ((IsR.sum X hX).div_real _ (IsR.coe N) (by exact_mod_cast hN.ne'))) N hN e he

end Cert.LibMoments

end
-- ==== Proof.Degree.lean ====
/-
  The in-degree of a node, counted with its self-loop, and the weight 1/deg of the self-loop.

  A degree is "zero, plus one for every edge that points at the node, plus one": whatever the edge list, this is a
  real number that is at least one. For such a number d the reciprocal square root is the real 1/sqrt d, so
      rsqrt d * rsqrt d = 1 / d
  exactly: the weight a self-loop gets when it is treated as one more edge (the product of the two endpoint
  factors rsqrt d) is the weight 1/d of the separate self-loop term. No finiteness of any array is used: a degree
  depends on the integer edge list only.
-/
import proofs.«117620_j43267500540702_1_alg».proof.Proof.LibMoments

noncomputable section

namespace Cert.Degree

open Idealize.ShloMosaic Cert.LibMoments
open scoped BigOperators

/-- A finite sum of terms that are each 1 or 0 is the coercion of a real number that is not negative. -/
theorem count_coe {ι : Type*} (S : Finset ι) (P : ι → Prop) [DecidablePred P] :
    ∃ r : ℝ, 0 ≤ r ∧ (∑ e ∈ S, if P e then (1 : EReal) else 0) = (r : EReal) := by
  classical
  induction S using Finset.induction_on with
  | empty => exact ⟨0, le_refl _, by simp⟩
  | insert a S ha ih =>
    obtain ⟨r, hr, h⟩ := ih
    rw [Finset.sum_insert ha, h]
    by_cases hp : P a
    · refine ⟨1 + r, by linarith, ?_⟩
      rw [if_pos hp, EReal.coe_add, EReal.coe_one]
    · refine ⟨r, hr, ?_⟩
      rw [if_neg hp, zero_add]

/-- A degree — zero, plus one per edge that satisfies P, plus one — is a real number that is at least one. -/
theorem degree_real {ι : Type*} [Fintype ι] (P : ι → Prop) [DecidablePred P] (z one : EReal) (hz : z = 0) (h1 : one = 1) :
    ∃ r : ℝ, 1 ≤ r ∧ (z + ∑ e, if P e then one else 0) + one = (r : EReal) := by
  subst hz h1
  obtain ⟨r, hr, h⟩ := count_coe Finset.univ P
  refine ⟨r + 1, by linarith, ?_⟩
  rw [h, zero_add, EReal.coe_add, EReal.coe_one]

/-- For a real d that is at least one, rsqrt d * rsqrt d = 1 / d. -/
theorem rsqrt_mul_self (r : ℝ) (hr : 1 ≤ r) (one : EReal) (h1 : one = 1) :
    Ideal.rsqrt (r : EReal) * Ideal.rsqrt (r : EReal) = Ideal.div one (r : EReal) := by
  subst h1
  have hpos : 0 < r := lt_of_lt_of_le zero_lt_one hr
  rw [rsqrt_pos r hpos, ← EReal.coe_mul, Ideal.div_coe hpos.ne' 1, one_mul]
  congr 1
  rw [← mul_inv, Real.mul_self_sqrt hpos.le, one_div]

end Cert.Degree

end
-- ==== Proof.RefDegree.lean ====
/-
  The reference's degrees, for any edge list. The degree of node n is zero, plus one per edge whose normalised target
  word is n, plus one: a real number that is at least one. So dinv n * dinv n = rsqrt(deg n) * rsqrt(deg n) is
  1 / deg n, the weight of the separate self-loop term; laid along the lanes it is the same number at every lane.
-/
import proofs.«117620_j43267500540702_1_alg».proof.Proof.Gen.ReferenceIdeal.Read
import proofs.«117620_j43267500540702_1_alg».proof.Proof.LawLayouts
import proofs.«117620_j43267500540702_1_alg».proof.Proof.LibRowTable
import proofs.«117620_j43267500540702_1_alg».proof.Proof.LibSegmentSum
import proofs.«117620_j43267500540702_1_alg».proof.Proof.LibMoments
import proofs.«117620_j43267500540702_1_alg».proof.Proof.Degree
import Idealize.ShloMosaic.Lib.Pipeline.Value
import Idealize.ShloMosaic.Lib.ValueIdx
import Idealize.ShloMosaic.PureOps.Ideal

set_option maxRecDepth 16384
set_option maxHeartbeats 1000000

noncomputable section

namespace Cert.RefDegree

open Idealize.ShloMosaic Idealize.ShloMosaic.ValueIdx
open Cert.ReferenceIdeal Cert.ReferenceIdeal.Gen Cert.ReferenceIdeal.Read Cert.LawLayouts
open Cert.LibRowTable Cert.LibSegmentSum
open scoped BigOperators

variable (ei : S2x600000.Idx → BitVec 32)

/-- The degree at n. -/
theorem v29_at (n : Fin 100000) : val_main_v29 (F := Ideal) ei (ix1 n)
    = (Ideal.ofBits .f32 0x00000000#32 + ∑ e : Fin 600000,
        if (val_main_v24 (F := Ideal) ei (ix1 e)).toInt = (n.val : Int) then Ideal.ofBits .f32 0x3F800000#32 else 0)
      + Ideal.ofBits .f32 0x3F800000#32 := by
  rw [val_main_v29_apply, val_main_v28_apply, val_main_cst_4_apply, Ideal.addf_def, Ideal.ofBits_def]
  refine congrArg (· + Ideal.ofBits .f32 0x3F800000#32) ?_
  unfold val_main_v27
  refine (scatterVec_sum (N := 100000) (E := 600000) Cert.ReferenceIdeal.Facts₀.scatter_S100000_S600000x1_S600000_n_0_0_1_wf _ _ _ n).trans ?_
  rw [val_main_v19_apply, val_main_cst_1_apply, Ideal.ofBits_def]
  refine congrArg (Ideal.ofBits .f32 0x00000000#32 + ·) (Finset.sum_congr rfl fun e _ => ?_)
  unfold val_main_v25
  rw [col_at (E := 600000) (by decide) (val_main_v24 (F := Ideal) ei) bcast_S600000_S600000x1_0 e,
    val_main_v26_apply, val_main_cst_3_apply, Ideal.ofBits_def]

/-- The weight of node n's self-loop: dinv n * dinv n = 1 / deg n. -/
theorem selfloop_weight (n : Fin 100000) :
    val_main_v30 (F := Ideal) ei (ix1 n) * val_main_v30 (F := Ideal) ei (ix1 n)
      = Ideal.div (Ideal.ofBits .f32 0x3F800000#32) (val_main_v29 (F := Ideal) ei (ix1 n)) := by
  obtain ⟨r, hr, hd⟩ := Cert.Degree.degree_real (fun e : Fin 600000 => (val_main_v24 (F := Ideal) ei (ix1 e)).toInt = (n.val : Int))
    (Ideal.ofBits .f32 0x00000000#32) (Ideal.ofBits .f32 0x3F800000#32) Ideal.ofBits_zero_f32 Cert.LibMoments.ofBits_one
  have h30 : val_main_v30 (F := Ideal) ei (ix1 n) = Ideal.rsqrt (val_main_v29 (F := Ideal) ei (ix1 n)) := by
    rw [val_main_v30_apply]
    exact Ideal.hostUnary_rsqrt_def _
  rw [h30, v29_at, hd]
  exact Cert.Degree.rsqrt_mul_self r hr _ Cert.LibMoments.ofBits_one

/-- The reciprocal degree laid along the lanes, at (n, q). -/
theorem v62_at (n : Fin 100000) (q : Fin 128) : val_main_v62 (F := Ideal) ei (ix2 n q)
    = Ideal.div (Ideal.ofBits .f32 0x3F800000#32) (val_main_v29 (F := Ideal) ei (ix1 n)) := by
  unfold val_main_v62 val_main_v61
  rw [rows_at (E := 100000) (by decide) (val_main_v60 (F := Ideal) ei) bcast_S100000_S100000x1_0
    bcast_S100000x1_S100000x128_0_1 n q]
  simp only [val_main_v60_apply, val_main_v59_apply, val_main_cst_12_apply, Ideal.hostDivf_def, Ideal.ofBits_def]

end Cert.RefDegree

end
-- ==== Proof.RefTail.lean ====
/-
  The reference's product, bias and gate read at (n, q), and its layer at (n, q) with its last steps opened:
  max((aggregate + h * (1/deg)) + bias, 0) * gate — for any argument arrays.
-/
import proofs.«117620_j43267500540702_1_alg».proof.Proof.Gen.ReferenceIdeal.Read
import proofs.«117620_j43267500540702_1_alg».proof.Proof.LayerSpec
import proofs.«117620_j43267500540702_1_alg».proof.Proof.LibPlainDot
import proofs.«117620_j43267500540702_1_alg».proof.Proof.LibBiasRows
import Idealize.ShloMosaic.Lib.Pipeline.Value
import Idealize.ShloMosaic.Lib.ValueIdx
import Idealize.ShloMosaic.PureOps.Ideal

set_option maxRecDepth 16384
set_option maxHeartbeats 1000000

noncomputable section

namespace Cert.RefTail

open Idealize.ShloMosaic Idealize.ShloMosaic.ValueIdx
open Cert.ReferenceIdeal Cert.ReferenceIdeal.Gen Cert.ReferenceIdeal.Read Cert.Gcn
open scoped BigOperators

/-- The product at (n, q). -/
theorem v18_at (x : S100000x128.Idx → EReal) (w : S128x128.Idx → EReal) (n : Fin 100000) (q : Fin 128) :
    val_main_v18 (F := Ideal) x w (ix2 n q) = mm x w (ix2 n q) := by
  unfold val_main_v18
  exact Cert.LibPlainDot.hostdot_plain (R := 100000) (K := 128) (N := 128) x w n q

/-- The bias laid along the rows, at (n, q). -/
theorem v66_at (b : S128.Idx → EReal) (n : Fin 100000) (q : Fin 128) : val_main_v66 (F := Ideal) b (ix2 n q) = b (ix1 q) := by
  unfold val_main_v66 val_main_v65
  exact Cert.LibBiasRows.bias_host (R := 100000) (n := 128) (by decide) b bcast_S128_S1x128_1 bcast_S1x128_S100000x128_0_1 n q

/-- The gate row laid along the rows, at (n, q). -/
theorem v69_at (t : S1.Idx → EReal) (wg1 : S1x128.Idx → EReal) (bg1 : S128.Idx → EReal) (wg2 : S128x128.Idx → EReal)
    (bg2 : S128.Idx → EReal) (n : Fin 100000) (q : Fin 128) :
    val_main_v69 (F := Ideal) t wg1 bg1 wg2 bg2 (ix2 n q) = val_main_v17 (F := Ideal) t wg1 bg1 wg2 bg2 (ix2 (0 : Fin 1) q) := by
  unfold val_main_v69
  exact broadcastInDim_apply _ bcast_S1x128_S100000x128_0_1 _ (ix2 n q) (ix2 (0 : Fin 1) q) fun a => by
    match a with
    | ⟨0, _⟩ => show (0 : ℕ) = if (1 : ℕ) = 1 then 0 else n.val; rw [if_pos rfl]
    | ⟨1, _⟩ => show q.val = if (128 : ℕ) = 1 then 0 else q.val; rw [if_neg (by decide)]

/-- The reference's layer at (n, q), its last steps opened. -/
theorem v70_at (ei : S2x600000.Idx → BitVec 32) (x : S100000x128.Idx → EReal) (t : S1.Idx → EReal) (w : S128x128.Idx → EReal)
    (b : S128.Idx → EReal) (wg1 : S1x128.Idx → EReal) (bg1 : S128.Idx → EReal) (wg2 : S128x128.Idx → EReal) (bg2 : S128.Idx → EReal)
    (n : Fin 100000) (q : Fin 128) :
    val_main_v70 (F := Ideal) x ei t w b wg1 bg1 wg2 bg2 (ix2 n q)
      = max ((val_main_v58 (F := Ideal) x ei w (ix2 n q)
              + val_main_v18 (F := Ideal) x w (ix2 n q) * val_main_v62 (F := Ideal) ei (ix2 n q)) + b (ix1 q))
          (Ideal.ofBits .f32 0x00000000#32) * val_main_v17 (F := Ideal) t wg1 bg1 wg2 bg2 (ix2 (0 : Fin 1) q) := by
  rw [val_main_v70_apply, val_main_v68_apply, val_main_v67_apply, val_main_v64_apply, val_main_v63_apply,
    val_main_call0_v0_apply, val_main_call0_cst_apply, v66_at, v69_at]
  simp only [Ideal.mulf_def, Ideal.maximumf_def, Ideal.addf_def, Ideal.ofBits_def]

end Cert.RefTail

end
-- ==== Proof.LibSmallWords.lean ====
/-
  GENERAL lemmas, no program mentioned.

  * coe_sum: a finite sum of reals taken in the extended reals is the real sum (coerced).
  * slt_ofNat / sle_ofNat: the signed comparisons "<" and "≤" of two naturals below 2^31, written as 32-bit words, are the
    comparisons of the naturals (no wrap-around: both words are non-negative as signed integers).
-/
import Mathlib.Data.EReal.Basic
import Mathlib.Data.EReal.Operations
import Mathlib.Algebra.BigOperators.Group.Finset.Basic

namespace Cert.LibSmallWords

open scoped BigOperators

/-- A finite sum of reals, taken in the extended reals, is the real sum. -/
theorem coe_sum {ι : Type*} (s : Finset ι) (g : ι → ℝ) : (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- Signed "less than" of two small naturals, as 32-bit words. -/
theorem slt_ofNat (a b : ℕ) (ha : a < 2147483648) (hb : b < 2147483648) :
    (BitVec.ofNat 32 a).slt (BitVec.ofNat 32 b) = decide (a < b) := by
  have ea : (BitVec.ofNat 32 a).toInt = (a : Int) := by
    rw [BitVec.toInt_eq_toNat_of_lt (by rw [BitVec.toNat_ofNat]; omega), BitVec.toNat_ofNat]; omega
  have eb : (BitVec.ofNat 32 b).toInt = (b : Int) := by
    rw [BitVec.toInt_eq_toNat_of_lt (by rw [BitVec.toNat_ofNat]; omega), BitVec.toNat_ofNat]; omega
  rw [BitVec.slt, ea, eb]
  simp

/-- Signed "at most" of two small naturals, as 32-bit words. -/
theorem sle_ofNat (a b : ℕ) (ha : a < 2147483648) (hb : b < 2147483648) :
    (BitVec.ofNat 32 a).sle (BitVec.ofNat 32 b) = decide (a ≤ b) := by
  have ea : (BitVec.ofNat 32 a).toInt = (a : Int) := by
    rw [BitVec.toInt_eq_toNat_of_lt (by rw [BitVec.toNat_ofNat]; omega), BitVec.toNat_ofNat]; omega
  have eb : (BitVec.ofNat 32 b).toInt = (b : Int) := by
    rw [BitVec.toInt_eq_toNat_of_lt (by rw [BitVec.toNat_ofNat]; omega), BitVec.toNat_ofNat]; omega
  rw [BitVec.sle, ea, eb]
  simp

end Cert.LibSmallWords
-- ==== Proof.LibSelfLoops.lean ====
/-
  Self-loops appended to an edge list: the words and the sums. Nothing here mentions a program; any extents.

  A graph's E edges are followed by one self-loop (j, j) per node j < N, the node numbers written as 32-bit words.
  * A node number below 2^31 read signed is itself; it is not negative, so the "add the extent when negative"
    normalisation of an index leaves it alone; and the row a gather takes for it is row j.
  * A sum over the E + N entries of the extended list is the sum over the E edges plus the sum over the N
    self-loops; and of the self-loops' terms guarded by "the target is node n" only node n's is left.
-/
import Idealize.ShloMosaic.PureOps.Ideal
import proofs.«117620_j43267500540702_1_alg».proof.Proof.LibRowTable
import proofs.«117620_j43267500540702_1_alg».proof.Proof.LibSmallWords

noncomputable section

namespace Cert.LibSelfLoops

open Idealize.ShloMosaic
open scoped BigOperators

/-- A natural below 2^31, written as a 32-bit word and read signed, is itself. -/
theorem toInt_ofNat_small (j : ℕ) (hj : j < 2147483648) : (BitVec.ofNat 32 j).toInt = (j : Int) := by
  rw [BitVec.toInt_eq_toNat_of_lt (by rw [BitVec.toNat_ofNat]; omega), BitVec.toNat_ofNat]; omega

/-- Such a word is not negative: the normalisation "if the index is negative add the extent" returns it unchanged. -/
theorem normalise_small {α : Type} (j : ℕ) (hj : j < 2147483648) (a b : α) :
    Scalar.select (IntOp.cmpi .slt (BitVec.ofNat 32 j) 0#32) a b = b := by
  have h : (BitVec.ofNat 32 j).slt (BitVec.ofNat 32 0) = decide (j < 0) :=
    Cert.LibSmallWords.slt_ofNat j 0 hj (by omega)
  have h0 : IntOp.cmpi .slt (BitVec.ofNat 32 j) 0#32 = 0#1 := by
    show BitVec.ofBool ((BitVec.ofNat 32 j).slt (BitVec.ofNat 32 0)) = 0#1
    rw [h]; simp
  rw [h0]
  exact if_neg (by decide)

/-- The row a gather takes for the word of a node number j < N is row j. -/
theorem srcRow_small (N : ℕ) (hN : 0 < N) (hle : N ≤ 2147483648) (j : Fin N) :
    Cert.LibRowTable.srcRow N hN (BitVec.ofNat 32 j.val) = j := by
  apply Fin.ext
  show min (BitVec.ofNat 32 j.val).toInt.toNat (N - 1) = j.val
  rw [toInt_ofNat_small j.val (by have := j.isLt; omega)]
  have := j.isLt
  simp only [Int.toNat_natCast]
  omega

/-- A sum over E + N entries is the sum over the first E plus the sum over the last N. -/
theorem sum_split {M : Type*} [AddCommMonoid M] {E N T : ℕ} (hT : T = E + N) (f : Fin T → M) :
    ∑ e : Fin T, f e = ∑ e : Fin E, f ⟨e.val, by have := e.isLt; omega⟩ + ∑ j : Fin N, f ⟨E + j.val, by have := j.isLt; omega⟩ := by
  subst hT
  rw [Fin.sum_univ_add]
  rfl

/-- Of the self-loops' terms guarded by "the word of j read signed is n", only node n's is left. -/
theorem sum_self {M : Type*} [AddCommMonoid M] {N : ℕ} (hle : N ≤ 2147483648) (n : Fin N) (g : Fin N → M) :
    ∑ j : Fin N, (if (BitVec.ofNat 32 j.val).toInt = (n.val : Int) then g j else 0) = g n := by
  have h : ∀ j : Fin N, ((BitVec.ofNat 32 j.val).toInt = (n.val : Int)) ↔ j = n := fun j => by
    rw [toInt_ofNat_small j.val (by have := j.isLt; omega)]
    constructor
    · intro e; exact Fin.ext (by exact_mod_cast e)
    · intro e; rw [e]
  simp only [h]
  rw [Finset.sum_ite_eq' Finset.univ n g]
  simp

end Cert.LibSelfLoops

end
-- ==== Proof.LayerLaw.lean ====
/-
  One layer of the kernel program is one layer of the reference, entry by entry, for ANY arrays.

  Both multiply the node features by the layer's weights, h = x * w. The reference then sums, into node n, the rows
  h[src e] * norm e of the edges e whose target is n, adds the self-loop term h[n] * (1 / deg n), then the bias,
  rectifies and gates. The kernel appends one self-loop (j, j) of weight dinv j * dinv j per node to the edge list
  and sums once over the extended list. The two agree because
    * a sum over the extended list is the sum over the edges plus the sum over the self-loops, and of the
      self-loops that target n only node n's is left (its word read signed is n, it is not negative so the index
      normalisation leaves it alone, and the row gathered for it is row n);
    * deg n = (0 + the number of edges into n) + 1 is a real number that is at least 1, whatever the edge list, so
      dinv n * dinv n = rsqrt(deg n) * rsqrt(deg n) = 1 / deg n exactly.
  Only commutativity and associativity of the extended reals' addition are used: no array needs to be finite.
-/
import proofs.«117620_j43267500540702_1_alg».proof.Proof.KernelAgg
import proofs.«117620_j43267500540702_1_alg».proof.Proof.RefAgg
import proofs.«117620_j43267500540702_1_alg».proof.Proof.RefDegree
import proofs.«117620_j43267500540702_1_alg».proof.Proof.RefTail
import proofs.«117620_j43267500540702_1_alg».proof.Proof.HostStages
import proofs.«117620_j43267500540702_1_alg».proof.Proof.LayerSpec
import proofs.«117620_j43267500540702_1_alg».proof.Proof.LibSelfLoops
import proofs.«117620_j43267500540702_1_alg».proof.Proof.LibRowTable
import Idealize.ShloMosaic.Lib.Pipeline.Value
import Idealize.ShloMosaic.Lib.ValueIdx
import Idealize.ShloMosaic.PureOps.Ideal

set_option maxRecDepth 16384
set_option maxHeartbeats 1000000

noncomputable section

namespace Cert.LayerLaw

open Idealize.ShloMosaic Idealize.ShloMosaic.ValueIdx
open Cert.KernelIdeal Cert.KernelIdeal.HostStages Cert.KernelAgg Cert.RefAgg Cert.RefDegree Cert.RefTail Cert.ReferenceIdeal.Read Cert.LawLayouts Cert.Gcn
open Cert.LibRowTable
open scoped BigOperators

variable (ei : S2x600000.Idx → BitVec 32)

/-! ## The entries of the extended lists -/

theorem src_left (e : Fin 600000) (he : e.val < 700000) :
    srcExt ei (ix1 (⟨e.val, he⟩ : Fin 700000)) = val_main_v1 (F := Ideal) ei (ix1 e) := cat_left _ _ e he
theorem dst_left (e : Fin 600000) (he : e.val < 700000) :
    dstExt ei (ix1 (⟨e.val, he⟩ : Fin 700000)) = val_main_v3 (F := Ideal) ei (ix1 e) := cat_left _ _ e he
theorem norm_left (e : Fin 600000) (he : e.val < 700000) :
    normExt ei (ix1 (⟨e.val, he⟩ : Fin 700000)) = val_main_v45 (F := Ideal) ei (ix1 e) := cat_left _ _ e he
theorem src_right (j : Fin 100000) (hj : 600000 + j.val < 700000) :
    srcExt ei (ix1 (⟨600000 + j.val, hj⟩ : Fin 700000)) = BitVec.ofNat 32 j.val := (cat_right _ _ j hj).trans rfl
theorem dst_right (j : Fin 100000) (hj : 600000 + j.val < 700000) :
    dstExt ei (ix1 (⟨600000 + j.val, hj⟩ : Fin 700000)) = BitVec.ofNat 32 j.val := (cat_right _ _ j hj).trans rfl
theorem norm_right (j : Fin 100000) (hj : 600000 + j.val < 700000) :
    normExt ei (ix1 (⟨600000 + j.val, hj⟩ : Fin 700000))
      = val_main_v30 (F := Ideal) ei (ix1 j) * val_main_v30 (F := Ideal) ei (ix1 j) := (cat_right _ _ j hj).trans rfl

/-- The normalised source word of an edge is the one the reference gathers by. -/
theorem nrm_edge (e : Fin 600000) : nrm (val_main_v1 (F := Ideal) ei (ix1 e)) = val_main_v50 (F := Ideal) ei (ix1 e) := rfl

/-! ## The aggregation over the extended list is the aggregation over the edges plus the self-loop term -/

/-- A self-loop's term of the kernel's sum. -/
theorem self_term (h : S100000x128.Idx → EReal) (n : Fin 100000) (q : Fin 128) (j : Fin 100000) (hj : 600000 + j.val < 700000) :
    (if (dstExt ei (ix1 (⟨600000 + j.val, hj⟩ : Fin 700000))).toInt = (n.val : Int) then
        h (ix2 (srcRow 100000 (by decide) (nrm (srcExt ei (ix1 (⟨600000 + j.val, hj⟩ : Fin 700000))))) q)
          * normExt ei (ix1 (⟨600000 + j.val, hj⟩ : Fin 700000)) else 0)
      = if (BitVec.ofNat 32 j.val).toInt = (n.val : Int) then
          h (ix2 j q) * (val_main_v30 (F := Ideal) ei (ix1 j) * val_main_v30 (F := Ideal) ei (ix1 j)) else 0 := by
  rw [dst_right, src_right, norm_right]
  have hn : nrm (BitVec.ofNat 32 j.val) = BitVec.ofNat 32 j.val :=
    Cert.LibSelfLoops.normalise_small j.val (by have := j.isLt; omega) _ _
  rw [hn, Cert.LibSelfLoops.srcRow_small 100000 (by decide) (by decide) j]

theorem agg_sum_eq (x : S100000x128.Idx → EReal) (w : S128x128.Idx → EReal) (n : Fin 100000) (q : Fin 128) :
    agg (srcExt ei) (dstExt ei) (normExt ei) (mm x w) (ix2 n q)
      = val_main_v58 (F := Ideal) x ei w (ix2 n q)
        + val_main_v18 (F := Ideal) x w (ix2 n q) * val_main_v62 (F := Ideal) ei (ix2 n q) := by
  rw [agg_at, v58_at, v62_at, ← selfloop_weight, v18_at,
    Cert.LibSelfLoops.sum_split (E := 600000) (N := 100000) (T := 700000) (by norm_num), ← add_assoc]
  refine congrArg₂ (fun a b : EReal => a + b)
    (congrArg (Ideal.ofBits .f32 0x00000000#32 + ·) (Finset.sum_congr rfl fun e _ => ?_)) ?_
  · rw [dst_left, src_left, norm_left, nrm_edge, v18_at]
  · simp only [self_term]
    exact Cert.LibSelfLoops.sum_self (N := 100000) (by decide) n
      (fun j => mm x w (ix2 j q) * (val_main_v30 (F := Ideal) ei (ix1 j) * val_main_v30 (F := Ideal) ei (ix1 j)))

/-! ## The layer -/

/-- One layer of the kernel program, on the extended lists of ei and the reference's gate row, is the reference's layer. -/
theorem layer_eq (t : S1.Idx → EReal) (wg1 : S1x128.Idx → EReal) (bg1 : S128.Idx → EReal) (wg2 : S128x128.Idx → EReal)
    (bg2 : S128.Idx → EReal) (x : S100000x128.Idx → EReal) (w : S128x128.Idx → EReal) (b : S128.Idx → EReal) :
    fin (agg (srcExt ei) (dstExt ei) (normExt ei) (mm x w)) b (val_main_v17 (F := Ideal) t wg1 bg1 wg2 bg2)
      = val_main_v70 (F := Ideal) x ei t w b wg1 bg1 wg2 bg2 := by
  funext i
  obtain ⟨n, q, rfl⟩ : ∃ (n : Fin 100000) (q : Fin 128), i = ix2 n q := ⟨i 0, i 1, eq_ix2 i⟩
  rw [fin_apply, v70_at, agg_sum_eq]

end Cert.LayerLaw

end
-- ==== Proof.RefNet.lean ====
/-
  The reference's result is three applications of one layer: its second and third layers are the first layer's
  operations again, on the previous layer's output and the next weights and bias.
-/
import proofs.«117620_j43267500540702_1_alg».proof.Proof.Gen.ReferenceIdeal.Read
import Idealize.ShloMosaic.PureOps.Ideal

set_option maxRecDepth 16384
set_option maxHeartbeats 4000000

noncomputable section

namespace Cert.RefNet

open Idealize.ShloMosaic
open Cert.ReferenceIdeal Cert.ReferenceIdeal.Read

/-- After two layers. -/
theorem two_layers (x0 : (⟨S100000x128, .f32⟩ : BufTy).Contents (Elt Ideal)) (x1 : (⟨S2x600000, .i32⟩ : BufTy).Contents (Elt Ideal)) (x2 : (⟨S1, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S1x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) :
    val_main_v123 (F := Ideal) x0 x1 x2 x3 x4 x5 x6 x9 x10 x11 x12
      = val_main_v70 (F := Ideal) (val_main_v70 (F := Ideal) x0 x1 x2 x3 x4 x9 x10 x11 x12) x1 x2 x5 x6 x9 x10 x11 x12 := rfl

/-- After three layers: the result. -/
theorem three_layers (x0 : (⟨S100000x128, .f32⟩ : BufTy).Contents (Elt Ideal)) (x1 : (⟨S2x600000, .i32⟩ : BufTy).Contents (Elt Ideal)) (x2 : (⟨S1, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S1x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) :
    val_main_v176 (F := Ideal) x0 x1 x2 x3 x4 x5 x6 x7 x8 x9 x10 x11 x12
      = val_main_v70 (F := Ideal) (val_main_v70 (F := Ideal) (val_main_v70 (F := Ideal) x0 x1 x2 x3 x4 x9 x10 x11 x12) x1 x2 x5 x6 x9 x10 x11 x12)
          x1 x2 x7 x8 x9 x10 x11 x12 := rfl

end Cert.RefNet

end
-- ==== Proof.lean ====
/-
  A three-layer graph convolution with a temporal gate, as a kernel program against its plain reference: the two end
  with equal results on the extended reals, for every edge list and every argument array.

  Both programs compute, per layer, h = x * w (the kernel in twenty blocks of 5000 rows on the matrix unit, its change
  of float format the identity on extended reals), aggregate h over the graph with the symmetric normalisation,
  add the bias, rectify and multiply by a gate row computed once from the time stamp. They differ in one place: the
  reference adds the self-loop term h[n] * (1 / deg n) separately, the kernel appends one self-loop per node, of
  weight dinv n * dinv n, to the edge list and aggregates once. A degree is zero plus a count of edges plus one, a real
  number that is at least one whatever the integers of the edge list, so rsqrt(deg) * rsqrt(deg) = 1 / deg exactly,
  and a sum over the extended list splits into the sum over the edges and node n's own self-loop. Nothing else is
  used: addition of extended reals is commutative and associative, and no array needs to be finite — the
  precondition is never opened.

  The kernel's result is read off its run region by region: each region's output array is a whole-array function
  of its input arrays (the blocks written back cover it), each stretch of host operations is applied as printed, and
  a buffer nobody writes is carried unchanged. The reference's result is its run's term, three times one layer.
  The idealization rewrote no operation, so that claim is trivial; the frames are the programs' runs.
-/
import proofs.«117620_j43267500540702_1_alg».proof.Defs
import proofs.«117620_j43267500540702_1_alg».proof.Proof.Gen.Kernel
import proofs.«117620_j43267500540702_1_alg».proof.Proof.Gen.Kernel.Skeleton
import proofs.«117620_j43267500540702_1_alg».proof.Proof.Gen.Kernel.Launch
import proofs.«117620_j43267500540702_1_alg».proof.Proof.Gen.Kernel.Points
import proofs.«117620_j43267500540702_1_alg».proof.Proof.Gen.Kernel.Frame
import proofs.«117620_j43267500540702_1_alg».proof.Proof.Gen.KernelIdeal
import proofs.«117620_j43267500540702_1_alg».proof.Proof.Gen.KernelIdeal.Skeleton
import proofs.«117620_j43267500540702_1_alg».proof.Proof.Gen.KernelIdeal.Launch
import proofs.«117620_j43267500540702_1_alg».proof.Proof.Gen.KernelIdeal.Points
import proofs.«117620_j43267500540702_1_alg».proof.Proof.Gen.KernelIdeal.Frame
import proofs.«117620_j43267500540702_1_alg».proof.Proof.Gen.ReferenceIdeal
import proofs.«117620_j43267500540702_1_alg».proof.Proof.Gen.ReferenceIdeal.Run
import proofs.«117620_j43267500540702_1_alg».proof.Proof.Gen.ReferenceIdeal.Read
import proofs.«117620_j43267500540702_1_alg».proof.Proof.Gen.Pre_finite_inputs
import proofs.«117620_j43267500540702_1_alg».proof.Proof.KernelRun
import proofs.«117620_j43267500540702_1_alg».proof.Proof.KernelValue
import proofs.«117620_j43267500540702_1_alg».proof.Proof.LayerLaw
import proofs.«117620_j43267500540702_1_alg».proof.Proof.RefNet
import Idealize.ShloMosaic.Adequacy
import Idealize.ShloMosaic.Init

set_option maxRecDepth 16384
set_option maxHeartbeats 4000000

noncomputable section

namespace Cert.Proof

open Idealize.ShloMosaic Idealize.ShloMosaic.TcCoe Idealize.SL.Sem

/-- The kernel program's result, at the last boundary's contents, is the reference's result term of the launch arrays:
    three kernel layers are three reference layers. -/
theorem kernel_eq_ref (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W10 m ρ c (Proc.devRef .tc Cert.KernelIdeal.main_v94) : Cert.KernelIdeal.S100000x128.Idx → EReal)
      = Cert.ReferenceIdeal.Read.val_main_v176 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  rw [Cert.KernelIdeal.KernelValue.h94 m ρ c, Cert.RefNet.three_layers]
  simp only [Cert.KernelIdeal.KernelValue.layerK]
  rw [Cert.LayerLaw.layer_eq, Cert.LayerLaw.layer_eq, Cert.LayerLaw.layer_eq]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run and end with equal results. -/
theorem algebraic : Cert.algebraic_KernelIdeal_ReferenceIdeal := by
  intro m ρ m' ρ' _ hagree
  refine ⟨fun c => Cert.KernelIdeal.Gen.W10 m ρ c (Proc.devRef .tc Cert.KernelIdeal.main_v94),
    Cert.KernelIdeal.RunValue.run_value m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v176_eq, e0, e1, e2, e3, e4, e5, e6, e7, e8, e9, e10, e11, e12]
  exact (kernel_eq_ref m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
